-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x300000 : Shape := ⟨2, ![2, 300000]⟩
abbrev S300000x128 : Shape := ⟨2, ![300000, 128]⟩
abbrev S16x64 : Shape := ⟨2, ![16, 64]⟩
abbrev S100000 : Shape := ⟨1, ![100000]⟩
abbrev S300000 : Shape := ⟨1, ![300000]⟩
abbrev S300000x1 : Shape := ⟨2, ![300000, 1]⟩
abbrev S256x256 : Shape := ⟨2, ![256, 256]⟩
abbrev S256 : Shape := ⟨1, ![256]⟩
abbrev S448x512 : Shape := ⟨2, ![448, 512]⟩
abbrev S512 : Shape := ⟨1, ![512]⟩
abbrev S512x384 : Shape := ⟨2, ![512, 384]⟩
abbrev S384 : Shape := ⟨1, ![384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S300000x128 : S_.BroadcastsInDim S300000x128 (![] : Fin 0 → Fin S300000x128.rank)
  reducesTo_S300000x128_S_d0_1 : S300000x128.ReducesTo [0, 1] S_
  bcast_S_S16x64 : S_.BroadcastsInDim S16x64 (![] : Fin 0 → Fin S16x64.rank)
  reducesTo_S16x64_S_d0_1 : S16x64.ReducesTo [0, 1] S_
  bcast_S_S300000x1 : S_.BroadcastsInDim S300000x1 (![] : Fin 0 → Fin S300000x1.rank)
  reducesTo_S300000x1_S_d0_1 : S300000x1.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S448x512 : S_.BroadcastsInDim S448x512 (![] : Fin 0 → Fin S448x512.rank)
  reducesTo_S448x512_S_d0_1 : S448x512.ReducesTo [0, 1] S_
  bcast_S_S512 : S_.BroadcastsInDim S512 (![] : Fin 0 → Fin S512.rank)
  reducesTo_S512_S_d0 : S512.ReducesTo [0] S_
  bcast_S_S512x384 : S_.BroadcastsInDim S512x384 (![] : Fin 0 → Fin S512x384.rank)
  reducesTo_S512x384_S_d0_1 : S512x384.ReducesTo [0, 1] S_
  bcast_S_S384 : S_.BroadcastsInDim S384 (![] : Fin 0 → Fin S384.rank)
  reducesTo_S384_S_d0 : S384.ReducesTo [0] S_

variable [Facts]

def fn_part4 {F : FTy → Type} [FloatOps F] (main_arg17 : FVec F S512x384 .f32) (main_arg18 : FVec F S384 .f32) (main_v63 : IVec S_ 1) (main_v67 : IVec S_ 1) : IVec S_ 1 :=
  let main_v68 : IVec S_ 1 := andi main_v63 main_v67
  let main_v69 : FVec F S512x384 .f32 := Host.absf main_arg17
  let main_cst_26 : FVec F S_ .f32 := constant S_ .f32 0x7F800000#32
  let main_v70 : FVec F S512x384 .f32 := broadcastInDim S512x384 ![] bcast_S_S512x384 main_cst_26
  let main_v71 : IVec S512x384 1 := cmpf .olt main_v69 main_v70
  let main_c_27 : IVec S_ 1 := constantI S_ 1 1#1
  let main_v72 : IVec S_ 1 := (fun x v => Host.reduce IntOp.andi x v reducesTo_S512x384_S_d0_1 h_S_) main_v71 main_c_27
  let main_v73 : IVec S_ 1 := andi main_v68 main_v72
  let main_v74 : FVec F S384 .f32 := Host.absf main_arg18
  let main_cst_28 : FVec F S_ .f32 := constant S_ .f32 0x7F800000#32
  let main_v75 : FVec F S384 .f32 := broadcastInDim S384 ![] bcast_S_S384 main_cst_28
  let main_v76 : IVec S384 1 := cmpf .olt main_v74 main_v75
  let main_c_29 : IVec S_ 1 := constantI S_ 1 1#1
  let main_v77 : IVec S_ 1 := (fun x v => Host.reduce IntOp.andi x v reducesTo_S384_S_d0 h_S_) main_v76 main_c_29
  let main_v78 : IVec S_ 1 := andi main_v73 main_v77
  main_v78

def fn_part3 {F : FTy → Type} [FloatOps F] (main_arg14 : FVec F S512 .f32) (main_arg15 : FVec F S512 .f32) (main_arg16 : FVec F S512 .f32) (main_arg17 : FVec F S512x384 .f32) (main_arg18 : FVec F S384 .f32) (main_v48 : IVec S_ 1) (main_v49 : FVec F S448x512 .f32) (main_v50 : FVec F S448x512 .f32) : IVec S_ 1 :=
  let main_v51 : IVec S448x512 1 := cmpf .olt main_v49 main_v50
  let main_c_19 : IVec S_ 1 := constantI S_ 1 1#1
  let main_v52 : IVec S_ 1 := (fun x v => Host.reduce IntOp.andi x v reducesTo_S448x512_S_d0_1 h_S_) main_v51 main_c_19
  let main_v53 : IVec S_ 1 := andi main_v48 main_v52
  let main_v54 : FVec F S512 .f32 := Host.absf main_arg14
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg15
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg16
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg17 main_arg18 main_v63 main_v67

def fn_part2 {F : FTy → Type} [FloatOps F] (main_arg10 : FVec F S256 .f32) (main_arg11 : FVec F S256x256 .f32) (main_arg12 : FVec F S256 .f32) (main_arg13 : FVec F S448x512 .f32) (main_arg14 : FVec F S512 .f32) (main_arg15 : FVec F S512 .f32) (main_arg16 : FVec F S512 .f32) (main_arg17 : FVec F S512x384 .f32) (main_arg18 : FVec F S384 .f32) (main_v33 : IVec S_ 1) : IVec S_ 1 :=
  let main_v34 : FVec F S256 .f32 := Host.absf main_arg10
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg11
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg12
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S448x512 .f32 := Host.absf main_arg13
  let main_cst_18 : FVec F S_ .f32 := constant S_ .f32 0x7F800000#32
  let main_v50 : FVec F S448x512 .f32 := broadcastInDim S448x512 ![] bcast_S_S448x512 main_cst_18
  fn_part3 (F := F) main_arg14 main_arg15 main_arg16 main_arg17 main_arg18 main_v48 main_v49 main_v50

def fn_part1 {F : FTy → Type} [FloatOps F] (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S448x512 .f32) (main_arg14 : FVec F S512 .f32) (main_arg15 : FVec F S512 .f32) (main_arg16 : FVec F S512 .f32) (main_arg17 : FVec F S512x384 .f32) (main_arg18 : FVec F S384 .f32) (main_v13 : IVec S_ 1) (main_v16 : IVec S300000x1 1) : IVec S_ 1 :=
  let main_c_5 : IVec S_ 1 := constantI S_ 1 1#1
  let main_v17 : IVec S_ 1 := (fun x v => Host.reduce IntOp.andi x v reducesTo_S300000x1_S_d0_1 h_S_) main_v16 main_c_5
  let main_v18 : IVec S_ 1 := andi main_v13 main_v17
  let main_v19 : FVec F S256x256 .f32 := Host.absf main_arg7
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg10 main_arg11 main_arg12 main_arg13 main_arg14 main_arg15 main_arg16 main_arg17 main_arg18 main_v33

def fn {F : FTy → Type} [FloatOps F] (main_arg0 : FVec F S100000x128 .f32) (main_arg1 : IVec S2x300000 32) (main_arg2 : FVec F S300000x128 .f32) (main_arg3 : FVec F S16x64 .f32) (main_arg4 : IVec S100000 32) (main_arg5 : IVec S300000 32) (main_arg6 : FVec F S300000x1 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S448x512 .f32) (main_arg14 : FVec F S512 .f32) (main_arg15 : FVec F S512 .f32) (main_arg16 : FVec F S512 .f32) (main_arg17 : FVec F S512x384 .f32) (main_arg18 : FVec F S384 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S300000x128 .f32 := Host.absf main_arg2
  let main_cst_0 : FVec F S_ .f32 := constant S_ .f32 0x7F800000#32
  let main_v5 : FVec F S300000x128 .f32 := broadcastInDim S300000x128 ![] bcast_S_S300000x128 main_cst_0
  let main_v6 : IVec S300000x128 1 := cmpf .olt main_v4 main_v5
  let main_c_1 : IVec S_ 1 := constantI S_ 1 1#1
  let main_v7 : IVec S_ 1 := (fun x v => Host.reduce IntOp.andi x v reducesTo_S300000x128_S_d0_1 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S300000x1 .f32 := Host.absf main_arg6
  let main_cst_4 : FVec F S_ .f32 := constant S_ .f32 0x7F800000#32
  let main_v15 : FVec F S300000x1 .f32 := broadcastInDim S300000x1 ![] bcast_S_S300000x1 main_cst_4
  let main_v16 : IVec S300000x1 1 := cmpf .olt main_v14 main_v15
  fn_part1 (F := F) main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x300000 : Shape := ⟨2, ![2, 300000]⟩
abbrev S300000x128 : Shape := ⟨2, ![300000, 128]⟩
abbrev S16x64 : Shape := ⟨2, ![16, 64]⟩
abbrev S100000 : Shape := ⟨1, ![100000]⟩
abbrev S300000 : Shape := ⟨1, ![300000]⟩
abbrev S300000x1 : Shape := ⟨2, ![300000, 1]⟩
abbrev S256x256 : Shape := ⟨2, ![256, 256]⟩
abbrev S256 : Shape := ⟨1, ![256]⟩
abbrev S448x512 : Shape := ⟨2, ![448, 512]⟩
abbrev S512 : Shape := ⟨1, ![512]⟩
abbrev S512x384 : Shape := ⟨2, ![512, 384]⟩
abbrev S384 : Shape := ⟨1, ![384]⟩
abbrev S1x300000 : Shape := ⟨2, ![1, 300000]⟩
abbrev S_ : Shape := ⟨0, ![]⟩
abbrev S128x256 : Shape := ⟨2, ![128, 256]⟩
abbrev S1x256 : Shape := ⟨2, ![1, 256]⟩
abbrev S300000x256 : Shape := ⟨2, ![300000, 256]⟩
abbrev S4000x128 : Shape := ⟨2, ![4000, 128]⟩
abbrev S4000x256 : Shape := ⟨2, ![4000, 256]⟩
abbrev S4000 : Shape := ⟨1, ![4000]⟩
abbrev S4000x1 : Shape := ⟨2, ![4000, 1]⟩
abbrev S100000x256 : Shape := ⟨2, ![100000, 256]⟩
abbrev S100000x1 : Shape := ⟨2, ![100000, 1]⟩
abbrev S100000x64 : Shape := ⟨2, ![100000, 64]⟩
abbrev S128x512 : Shape := ⟨2, ![128, 512]⟩
abbrev S256x512 : Shape := ⟨2, ![256, 512]⟩
abbrev S64x512 : Shape := ⟨2, ![64, 512]⟩
abbrev S1x512 : Shape := ⟨2, ![1, 512]⟩
abbrev S1x384 : Shape := ⟨2, ![1, 384]⟩
abbrev S100000x384 : Shape := ⟨2, ![100000, 384]⟩
abbrev S2000x128 : Shape := ⟨2, ![2000, 128]⟩
abbrev S2000x256 : Shape := ⟨2, ![2000, 256]⟩
abbrev S2000x64 : Shape := ⟨2, ![2000, 64]⟩
abbrev S2000x384 : Shape := ⟨2, ![2000, 384]⟩
abbrev S2000x512 : Shape := ⟨2, ![2000, 512]⟩
abbrev S2000 : Shape := ⟨1, ![2000]⟩
abbrev S2000x1 : Shape := ⟨2, ![2000, 1]⟩

abbrev nBuf : Space → Nat
  | .hbm => 74
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S2x300000, .i32⟩
  | .hbm, ⟨2, _⟩ => ⟨S300000x128, .f32⟩
  | .hbm, ⟨3, _⟩ => ⟨S16x64, .f32⟩
  | .hbm, ⟨4, _⟩ => ⟨S100000, .i32⟩
  | .hbm, ⟨5, _⟩ => ⟨S300000, .i32⟩
  | .hbm, ⟨6, _⟩ => ⟨S300000x1, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S448x512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512x384, .f32⟩
  | .hbm, ⟨18, _⟩ => ⟨S384, .f32⟩
  | .hbm, ⟨19, _⟩ => ⟨S1x300000, .i32⟩
  | .hbm, ⟨20, _⟩ => ⟨S300000, .i32⟩
  | .hbm, ⟨21, _⟩ => ⟨S1x300000, .i32⟩
  | .hbm, ⟨22, _⟩ => ⟨S300000, .i32⟩
  | .hbm, ⟨23, _⟩ => ⟨S_, .i32⟩
  | .hbm, ⟨24, _⟩ => ⟨S300000, .i32⟩
  | .hbm, ⟨25, _⟩ => ⟨S300000, .i1⟩
  | .hbm, ⟨26, _⟩ => ⟨S_, .i32⟩
  | .hbm, ⟨27, _⟩ => ⟨S300000, .i32⟩
  | .hbm, ⟨28, _⟩ => ⟨S300000, .i32⟩
  | .hbm, ⟨29, _⟩ => ⟨S300000, .i32⟩
  | .hbm, ⟨30, _⟩ => ⟨S300000x1, .i32⟩
  | .hbm, ⟨31, _⟩ => ⟨S300000x128, .f32⟩
  | .hbm, ⟨32, _⟩ => ⟨S128x256, .f32⟩
  | .hbm, ⟨33, _⟩ => ⟨S128x256, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S300000x256, .f32⟩
  | .hbm, ⟨39, _⟩ => ⟨S300000x256, .f32⟩
  | .hbm, ⟨40, _⟩ => ⟨S300000x256, .f32⟩
  | .hbm, ⟨41, _⟩ => ⟨S_, .f32⟩
  | .hbm, ⟨42, _⟩ => ⟨S100000x256, .f32⟩
  | .hbm, ⟨43, _⟩ => ⟨S300000x1, .i32⟩
  | .hbm, ⟨44, _⟩ => ⟨S100000x256, .f32⟩
  | .hbm, ⟨45, _⟩ => ⟨S_, .f32⟩
  | .hbm, ⟨46, _⟩ => ⟨S300000, .f32⟩
  | .hbm, ⟨47, _⟩ => ⟨S_, .f32⟩
  | .hbm, ⟨48, _⟩ => ⟨S100000, .f32⟩
  | .hbm, ⟨49, _⟩ => ⟨S300000x1, .i32⟩
  | .hbm, ⟨50, _⟩ => ⟨S100000, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S100000x1, .f32⟩
  | .hbm, ⟨55, _⟩ => ⟨S100000x256, .f32⟩
  | .hbm, ⟨56, _⟩ => ⟨S100000x256, .f32⟩
  | .hbm, ⟨57, _⟩ => ⟨S_, .i32⟩
  | .hbm, ⟨58, _⟩ => ⟨S100000, .i32⟩
  | .hbm, ⟨59, _⟩ => ⟨S100000, .i1⟩
  | .hbm, ⟨60, _⟩ => ⟨S_, .i32⟩
  | .hbm, ⟨61, _⟩ => ⟨S100000, .i32⟩
  | .hbm, ⟨62, _⟩ => ⟨S100000, .i32⟩
  | .hbm, ⟨63, _⟩ => ⟨S100000, .i32⟩
  | .hbm, ⟨64, _⟩ => ⟨S100000x1, .i32⟩
  | .hbm, ⟨65, _⟩ => ⟨S100000x64, .f32⟩
  | .hbm, ⟨66, _⟩ => ⟨S128x512, .f32⟩
  | .hbm, ⟨67, _⟩ => ⟨S256x512, .f32⟩
  | .hbm, ⟨68, _⟩ => ⟨S64x512, .f32⟩
  | .hbm, ⟨69, _⟩ => ⟨S1x512, .f32⟩
  | .hbm, ⟨70, _⟩ => ⟨S1x512, .f32⟩
  | .hbm, ⟨71, _⟩ => ⟨S1x512, .f32⟩
  | .hbm, ⟨72, _⟩ => ⟨S1x384, .f32⟩
  | .hbm, ⟨73, _⟩ => ⟨S100000x384, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S256x256, .f32⟩
  | .local _ .vmem, ⟨10, _⟩ => ⟨S1x256, .f32⟩
  | .local _ .vmem, ⟨11, _⟩ => ⟨S4000x256, .f32⟩
  | .local _ .vmem, ⟨12, _⟩ => ⟨S4000x256, .f32⟩
  | .local _ .vmem, ⟨13, _⟩ => ⟨S2000x128, .f32⟩
  | .local _ .vmem, ⟨14, _⟩ => ⟨S2000x128, .f32⟩
  | .local _ .vmem, ⟨15, _⟩ => ⟨S2000x256, .f32⟩
  | .local _ .vmem, ⟨16, _⟩ => ⟨S2000x256, .f32⟩
  | .local _ .vmem, ⟨17, _⟩ => ⟨S2000x64, .f32⟩
  | .local _ .vmem, ⟨18, _⟩ => ⟨S2000x64, .f32⟩
  | .local _ .vmem, ⟨19, _⟩ => ⟨S128x512, .f32⟩
  | .local _ .vmem, ⟨20, _⟩ => ⟨S256x512, .f32⟩
  | .local _ .vmem, ⟨21, _⟩ => ⟨S64x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S512x384, .f32⟩
  | .local _ .vmem, ⟨26, _⟩ => ⟨S1x384, .f32⟩
  | .local _ .vmem, ⟨27, _⟩ => ⟨S2000x384, .f32⟩
  | .local _ .vmem, ⟨28, _⟩ => ⟨S2000x384, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_4 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg11_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem11_1 : DmaSem sig := 28

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x384 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x384 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x384 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  slices_S256x256_S128x256_0_0 : S256x256.Slices ![0, 0] S128x256
  slices_S256x256_S128x256_128_0 : S256x256.Slices ![128, 0] S128x256
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  reduces_S4000x256_S4000 : S4000x256.Reduces [1] S4000
  shapeCasts_S4000_S4000x1 : S4000.ShapeCasts S4000x1
  broadcasts_S4000x1_S4000x256 : S4000x1.Broadcasts S4000x256
  inb_S256x256_S256x256_0_0 : ∀ a, (![0, 0] : Fin 2 → Nat) a + S256x256.size a ≤ S256x256.size a
  h_S256x256 : 0 < S256x256.numel
  inb_S4000x256_S4000x256_0_0 : ∀ a, (![0, 0] : Fin 2 → Nat) a + S4000x256.size a ≤ S4000x256.size a
  h_S4000x256 : 0 < S4000x256.numel
  bcast_S300000x1_S300000x256_0_1 : S300000x1.BroadcastsInDim S300000x256 (![0, 1] : Fin 2 → Fin S300000x256.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  slices_S448x512_S128x512_0_0 : S448x512.Slices ![0, 0] S128x512
  slices_S448x512_S256x512_128_0 : S448x512.Slices ![128, 0] S256x512
  slices_S448x512_S64x512_384_0 : S448x512.Slices ![384, 0] S64x512
  shapeCasts_S512_S1x512 : S512.ShapeCasts S1x512
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  reduces_S2000x512_S2000 : S2000x512.Reduces [1] S2000
  shapeCasts_S2000_S2000x1 : S2000.ShapeCasts S2000x1
  broadcasts_S2000x1_S2000x512 : S2000x1.Broadcasts S2000x512
  inb_S512x384_S512x384_0_0 : ∀ a, (![0, 0] : Fin 2 → Nat) a + S512x384.size a ≤ S512x384.size a
  h_S512x384 : 0 < S512x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  gather_S100000x128_S300000x1_S300000x128_1_0_n_n_0_1_1128_wf : GatherDims.WF S100000x128 S300000x1 S300000x128 [1] [0] [] [0] [] 1 ![1, 128]
  dot_S4000x128_S128x256_S4000x256_1_0_0_1_n_n_wf : DotDims.WF S4000x128 S128x256 S4000x256 [1] [0] [0] [1] [] []
  dot_S4000x256_S256x256_S4000x256_1_0_0_1_n_n_wf : DotDims.WF S4000x256 S256x256 S4000x256 [1] [0] [0] [1] [] []
  scatter_S100000x256_S300000x1_S300000x256_1_0_0_1_wf : ScatterDims.WF S100000x256 S300000x1 S300000x256 [1] [0] [0] 1
  scatter_S100000_S300000x1_S300000_n_0_0_1_wf : ScatterDims.WF S100000 S300000x1 S300000 [] [0] [0] 1
  gather_S16x64_S100000x1_S100000x64_1_0_n_n_0_1_164_wf : GatherDims.WF S16x64 S100000x1 S100000x64 [1] [0] [] [0] [] 1 ![1, 64]
  dot_S2000x128_S128x512_S2000x512_1_0_0_1_n_n_wf : DotDims.WF S2000x128 S128x512 S2000x512 [1] [0] [0] [1] [] []
  dot_S2000x256_S256x512_S2000x512_1_0_0_1_n_n_wf : DotDims.WF S2000x256 S256x512 S2000x512 [1] [0] [0] [1] [] []
  dot_S2000x64_S64x512_S2000x512_1_0_0_1_n_n_wf : DotDims.WF S2000x64 S64x512 S2000x512 [1] [0] [0] [1] [] []
  dot_S2000x512_S512x384_S2000x384_1_0_0_1_n_n_wf : DotDims.WF S2000x512 S512x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S300000x128.size a
  hwx0_0 : ∀ i : grid0.Coords, EltTy.bits .f32 = 32 ∨ (Rect.block (s := S300000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S300000x128.size a
  hwx0_1 : ∀ i : grid0.Coords, EltTy.bits .f32 = 32 ∨ (Rect.block (s := S300000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x256.size a ≤ S300000x256.size a
  hwx0_9 : ∀ i : grid0.Coords, EltTy.bits .f32 = 32 ∨ (Rect.block (s := S300000x256) S4000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x512.size a
  hwx1_3 : ∀ i : grid1.Coords, EltTy.bits .f32 = 32 ∨ (Rect.block (s := S128x512) S128x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S256x512.size a
  hwx1_4 : ∀ i : grid1.Coords, EltTy.bits .f32 = 32 ∨ (Rect.block (s := S256x512) S256x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x512.size a ≤ S64x512.size a
  hwx1_5 : ∀ i : grid1.Coords, EltTy.bits .f32 = 32 ∨ (Rect.block (s := S64x512) S64x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x512.size a
  hwx1_8 : ∀ i : grid1.Coords, EltTy.bits .f32 = 32 ∨ (Rect.block (s := S1x512) S1x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512x384.size a ≤ S512x384.size a
  hwx1_9 : ∀ i : grid1.Coords, EltTy.bits .f32 = 32 ∨ (Rect.block (s := S512x384) S512x384.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x384.size a ≤ S1x384.size a
  hwx1_10 : ∀ i : grid1.Coords, EltTy.bits .f32 = 32 ∨ (Rect.block (s := S1x384) S1x384.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x384.size a ≤ S100000x384.size a
  hwx1_11 : ∀ i : grid1.Coords, EltTy.bits .f32 = 32 ∨ (Rect.block (s := S100000x384) S2000x384.size (cc1_transform_11 i) (hinb1_11 i)).WholeWords (EltTy.packing .f32)

variable [Facts₀]

def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def gather_S16x64_S100000x1_S100000x64_1_0_n_n_0_1_164 : GatherDims S16x64 S100000x1 S100000x64 where
  offsetDims := [1]
  collapsedSliceDims := [0]
  operandBatchingDims := []
  startIndicesBatchingDims := []
  startIndexMap := [0]
  indexVectorDim := 1
  sliceSizes := ![1, 64]
  wf := gather_S16x64_S100000x1_S100000x64_1_0_n_n_0_1_164_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x64_S64x512_S2000x512_1_0_0_1_n_n : DotDims S2000x64 S64x512 S2000x512 where
  lhsContracting := [1]
  rhsContracting := [0]
  lhsNonContracting := [0]
  rhsNonContracting := [1]
  lhsBatch := []
  rhsBatch := []
  wf := dot_S2000x64_S64x512_S2000x512_1_0_0_1_n_n_wf
def dot_S2000x512_S512x384_S2000x384_1_0_0_1_n_n : DotDims S2000x512 S512x384 S2000x384 where
  lhsContracting := [1]
  rhsContracting := [0]
  lhsNonContracting := [0]
  rhsNonContracting := [1]
  lhsBatch := []
  rhsBatch := []
  wf := dot_S2000x512_S512x384_S2000x384_1_0_0_1_n_n_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S4000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S128x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S256x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S64x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v44) S1x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg17) S512x384.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v45) S1x384.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v46) S2000x384.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x300000 : Shape := ⟨2, ![2, 300000]⟩
abbrev S300000x128 : Shape := ⟨2, ![300000, 128]⟩
abbrev S16x64 : Shape := ⟨2, ![16, 64]⟩
abbrev S100000 : Shape := ⟨1, ![100000]⟩
abbrev S300000 : Shape := ⟨1, ![300000]⟩
abbrev S300000x1 : Shape := ⟨2, ![300000, 1]⟩
abbrev S256x256 : Shape := ⟨2, ![256, 256]⟩
abbrev S256 : Shape := ⟨1, ![256]⟩
abbrev S448x512 : Shape := ⟨2, ![448, 512]⟩
abbrev S512 : Shape := ⟨1, ![512]⟩
abbrev S512x384 : Shape := ⟨2, ![512, 384]⟩
abbrev S384 : Shape := ⟨1, ![384]⟩
abbrev S1x300000 : Shape := ⟨2, ![1, 300000]⟩
abbrev S_ : Shape := ⟨0, ![]⟩
abbrev S300000x256 : Shape := ⟨2, ![300000, 256]⟩
abbrev S1x256 : Shape := ⟨2, ![1, 256]⟩
abbrev S100000x256 : Shape := ⟨2, ![100000, 256]⟩
abbrev S100000x1 : Shape := ⟨2, ![100000, 1]⟩
abbrev S100000x64 : Shape := ⟨2, ![100000, 64]⟩
abbrev S100000x448 : Shape := ⟨2, ![100000, 448]⟩
abbrev S100000x512 : Shape := ⟨2, ![100000, 512]⟩
abbrev S1x512 : Shape := ⟨2, ![1, 512]⟩
abbrev S100000x384 : Shape := ⟨2, ![100000, 384]⟩
abbrev S1x384 : Shape := ⟨2, ![1, 384]⟩

abbrev nBuf : Space → Nat
  | .hbm => 141
  | .vmem => 0
  | .smem => 0
  | _ => 0

abbrev hbmTy0_0 (i : Nat) : BufTy := match i % 128 with
  | 0 => ⟨S100000x128, .f32⟩
  | 1 => ⟨S2x300000, .i32⟩
  | 2 => ⟨S300000x128, .f32⟩
  | 3 => ⟨S16x64, .f32⟩
  | 4 => ⟨S100000, .i32⟩
  | 5 => ⟨S300000, .i32⟩
  | 6 => ⟨S300000x1, .f32⟩
  | 7 => ⟨S256x256, .f32⟩
  | 8 => ⟨S256, .f32⟩
  | 9 => ⟨S256, .f32⟩
  | 10 => ⟨S256, .f32⟩
  | 11 => ⟨S256x256, .f32⟩
  | 12 => ⟨S256, .f32⟩
  | 13 => ⟨S448x512, .f32⟩
  | 14 => ⟨S512, .f32⟩
  | 15 => ⟨S512, .f32⟩
  | 16 => ⟨S512, .f32⟩
  | 17 => ⟨S512x384, .f32⟩
  | 18 => ⟨S384, .f32⟩
  | 19 => ⟨S1x300000, .i32⟩
  | 20 => ⟨S300000, .i32⟩
  | 21 => ⟨S1x300000, .i32⟩
  | 22 => ⟨S300000, .i32⟩
  | 23 => ⟨S_, .i32⟩
  | 24 => ⟨S300000, .i32⟩
  | 25 => ⟨S300000, .i1⟩
  | 26 => ⟨S_, .i32⟩
  | 27 => ⟨S300000, .i32⟩
  | 28 => ⟨S300000, .i32⟩
  | 29 => ⟨S300000, .i32⟩
  | 30 => ⟨S300000x1, .i32⟩
  | 31 => ⟨S300000x128, .f32⟩
  | 32 => ⟨S300000x256, .f32⟩
  | 33 => ⟨S300000x256, .f32⟩
  | 34 => ⟨S1x256, .f32⟩
  | 35 => ⟨S300000x256, .f32⟩
  | 36 => ⟨S300000x256, .f32⟩
  | 37 => ⟨S_, .f32⟩
  | 38 => ⟨S300000x256, .f32⟩
  | 39 => ⟨S300000x256, .f32⟩
  | 40 => ⟨S_, .f32⟩
  | 41 => ⟨S300000, .f32⟩
  | 42 => ⟨S300000x1, .f32⟩
  | 43 => ⟨S_, .f32⟩
  | 44 => ⟨S300000x1, .f32⟩
  | 45 => ⟨S300000x1, .f32⟩
  | 46 => ⟨S300000x256, .f32⟩
  | 47 => ⟨S300000x256, .f32⟩
  | 48 => ⟨S300000x256, .f32⟩
  | 49 => ⟨S_, .f32⟩
  | 50 => ⟨S300000, .f32⟩
  | 51 => ⟨S300000x1, .f32⟩
  | 52 => ⟨S_, .f32⟩
  | 53 => ⟨S300000x1, .f32⟩
  | 54 => ⟨S300000x1, .f32⟩
  | 55 => ⟨S300000x256, .f32⟩
  | 56 => ⟨S300000x256, .f32⟩
  | 57 => ⟨S_, .f32⟩
  | 58 => ⟨S300000x1, .f32⟩
  | 59 => ⟨S300000x1, .f32⟩
  | 60 => ⟨S300000x1, .f32⟩
  | 61 => ⟨S300000x256, .f32⟩
  | 62 => ⟨S300000x256, .f32⟩
  | 63 => ⟨S1x256, .f32⟩
  | 64 => ⟨S300000x256, .f32⟩
  | 65 => ⟨S300000x256, .f32⟩
  | 66 => ⟨S1x256, .f32⟩
  | 67 => ⟨S300000x256, .f32⟩
  | 68 => ⟨S300000x256, .f32⟩
  | 69 => ⟨S300000x256, .f32⟩
  | 70 => ⟨S1x256, .f32⟩
  | 71 => ⟨S300000x256, .f32⟩
  | 72 => ⟨S300000x256, .f32⟩
  | 73 => ⟨S300000x256, .f32⟩
  | 74 => ⟨S300000x256, .f32⟩
  | 75 => ⟨S_, .f32⟩
  | 76 => ⟨S100000x256, .f32⟩
  | 77 => ⟨S300000x1, .i32⟩
  | 78 => ⟨S100000x256, .f32⟩
  | 79 => ⟨S_, .f32⟩
  | 80 => ⟨S300000, .f32⟩
  | 81 => ⟨S_, .f32⟩
  | 82 => ⟨S100000, .f32⟩
  | 83 => ⟨S300000x1, .i32⟩
  | 84 => ⟨S100000, .f32⟩
  | 85 => ⟨S_, .f32⟩
  | 86 => ⟨S100000, .f32⟩
  | 87 => ⟨S100000, .f32⟩
  | 88 => ⟨S100000x1, .f32⟩
  | 89 => ⟨S100000x256, .f32⟩
  | 90 => ⟨S100000x256, .f32⟩
  | 91 => ⟨S_, .i32⟩
  | 92 => ⟨S100000, .i32⟩
  | 93 => ⟨S100000, .i1⟩
  | 94 => ⟨S_, .i32⟩
  | 95 => ⟨S100000, .i32⟩
  | 96 => ⟨S100000, .i32⟩
  | 97 => ⟨S100000, .i32⟩
  | 98 => ⟨S100000x1, .i32⟩
  | 99 => ⟨S100000x64, .f32⟩
  | 100 => ⟨S100000x448, .f32⟩
  | 101 => ⟨S100000x512, .f32⟩
  | 102 => ⟨S1x512, .f32⟩
  | 103 => ⟨S100000x512, .f32⟩
  | 104 => ⟨S100000x512, .f32⟩
  | 105 => ⟨S_, .f32⟩
  | 106 => ⟨S100000x512, .f32⟩
  | 107 => ⟨S100000x512, .f32⟩
  | 108 => ⟨S_, .f32⟩
  | 109 => ⟨S100000, .f32⟩
  | 110 => ⟨S100000x1, .f32⟩
  | 111 => ⟨S_, .f32⟩
  | 112 => ⟨S100000x1, .f32⟩
  | 113 => ⟨S100000x1, .f32⟩
  | 114 => ⟨S100000x512, .f32⟩
  | 115 => ⟨S100000x512, .f32⟩
  | 116 => ⟨S100000x512, .f32⟩
  | 117 => ⟨S_, .f32⟩
  | 118 => ⟨S100000, .f32⟩
  | 119 => ⟨S100000x1, .f32⟩
  | 120 => ⟨S_, .f32⟩
  | 121 => ⟨S100000x1, .f32⟩
  | 122 => ⟨S100000x1, .f32⟩
  | 123 => ⟨S100000x512, .f32⟩
  | 124 => ⟨S100000x512, .f32⟩
  | 125 => ⟨S_, .f32⟩
  | 126 => ⟨S100000x1, .f32⟩
  | 127 => ⟨S100000x1, .f32⟩
  | _ => ⟨S100000x128, .f32⟩

abbrev hbmTy0_1 (i : Nat) : BufTy := match i % 128 with
  | 0 => ⟨S100000x1, .f32⟩
  | 1 => ⟨S100000x512, .f32⟩
  | 2 => ⟨S100000x512, .f32⟩
  | 3 => ⟨S1x512, .f32⟩
  | 4 => ⟨S100000x512, .f32⟩
  | 5 => ⟨S100000x512, .f32⟩
  | 6 => ⟨S1x512, .f32⟩
  | 7 => ⟨S100000x512, .f32⟩
  | 8 => ⟨S100000x512, .f32⟩
  | 9 => ⟨S100000x384, .f32⟩
  | 10 => ⟨S1x384, .f32⟩
  | 11 => ⟨S100000x384, .f32⟩
  | 12 => ⟨S100000x384, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call0_cst : Ref sig .tc := ⟨.hbm, 37, rfl⟩
abbrev main_call0_v0 : Ref sig .tc := ⟨.hbm, 38, rfl⟩
abbrev main_v16 : Ref sig .tc := ⟨.hbm, 39, rfl⟩
abbrev main_cst : Ref sig .tc := ⟨.hbm, 40, rfl⟩
abbrev main_v17 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_4 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_5 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_6 : Ref sig .tc := ⟨.hbm, 79, rfl⟩
abbrev main_v50 : Ref sig .tc := ⟨.hbm, 80, rfl⟩
abbrev main_cst_7 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_9 : Ref sig .tc := ⟨.hbm, 91, rfl⟩
abbrev main_v59 : Ref sig .tc := ⟨.hbm, 92, rfl⟩
abbrev main_v60 : Ref sig .tc := ⟨.hbm, 93, rfl⟩
abbrev main_c_10 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_call1_cst : Ref sig .tc := ⟨.hbm, 105, rfl⟩
abbrev main_call1_v0 : Ref sig .tc := ⟨.hbm, 106, rfl⟩
abbrev main_v71 : Ref sig .tc := ⟨.hbm, 107, rfl⟩
abbrev main_cst_11 : Ref sig .tc := ⟨.hbm, 108, rfl⟩
abbrev main_v72 : Ref sig .tc := ⟨.hbm, 109, rfl⟩
abbrev main_v73 : Ref sig .tc := ⟨.hbm, 110, rfl⟩
abbrev main_cst_12 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_13 : Ref sig .tc := ⟨.hbm, 117, rfl⟩
abbrev main_v79 : Ref sig .tc := ⟨.hbm, 118, rfl⟩
abbrev main_v80 : Ref sig .tc := ⟨.hbm, 119, rfl⟩
abbrev main_cst_14 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_15 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  concatenates_S300000x128_S300000x128_S300000x256_d1 : Shape.Concatenates [S300000x128, S300000x128] S300000x256 1
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  bcast_S_S300000x256 : S_.BroadcastsInDim S300000x256 (![] : Fin 0 → Fin S300000x256.rank)
  reducesTo_S300000x256_S300000_d1 : S300000x256.ReducesTo [1] S300000
  h_S_ : 0 < S_.numel
  bcast_S_S300000x1 : S_.BroadcastsInDim S300000x1 (![] : Fin 0 → Fin S300000x1.rank)
  bcast_S300000x1_S300000x256_0_1 : S300000x1.BroadcastsInDim S300000x256 (![0, 1] : Fin 2 → Fin S300000x256.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  concatenates_S100000x128_S100000x256_S100000x64_S100000x448_d1 : Shape.Concatenates [S100000x128, S100000x256, S100000x64] S100000x448 1
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  reducesTo_S100000x512_S100000_d1 : S100000x512.ReducesTo [1] S100000
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  gather_S100000x128_S300000x1_S300000x128_1_0_n_n_0_1_1128_wf : GatherDims.WF S100000x128 S300000x1 S300000x128 [1] [0] [] [0] [] 1 ![1, 128]
  dot_S300000x256_S256x256_S300000x256_1_0_0_1_n_n_wf : DotDims.WF S300000x256 S256x256 S300000x256 [1] [0] [0] [1] [] []
  scatter_S100000x256_S300000x1_S300000x256_1_0_0_1_wf : ScatterDims.WF S100000x256 S300000x1 S300000x256 [1] [0] [0] 1
  scatter_S100000_S300000x1_S300000_n_0_0_1_wf : ScatterDims.WF S100000 S300000x1 S300000 [] [0] [0] 1
  gather_S16x64_S100000x1_S100000x64_1_0_n_n_0_1_164_wf : GatherDims.WF S16x64 S100000x1 S100000x64 [1] [0] [] [0] [] 1 ![1, 64]
  dot_S100000x448_S448x512_S100000x512_1_0_0_1_n_n_wf : DotDims.WF S100000x448 S448x512 S100000x512 [1] [0] [0] [1] [] []
  dot_S100000x512_S512x384_S100000x384_1_0_0_1_n_n_wf : DotDims.WF S100000x512 S512x384 S100000x384 [1] [0] [0] [1] [] []

variable [Facts₀]

def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def dot_S300000x256_S256x256_S300000x256_1_0_0_1_n_n : DotDims S300000x256 S256x256 S300000x256 where
  lhsContracting := [1]
  rhsContracting := [0]
  lhsNonContracting := [0]
  rhsNonContracting := [1]
  lhsBatch := []
  rhsBatch := []
  wf := dot_S300000x256_S256x256_S300000x256_1_0_0_1_n_n_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def gather_S16x64_S100000x1_S100000x64_1_0_n_n_0_1_164 : GatherDims S16x64 S100000x1 S100000x64 where
  offsetDims := [1]
  collapsedSliceDims := [0]
  operandBatchingDims := []
  startIndicesBatchingDims := []
  startIndexMap := [0]
  indexVectorDim := 1
  sliceSizes := ![1, 64]
  wf := gather_S16x64_S100000x1_S100000x64_1_0_n_n_0_1_164_wf
def dot_S100000x448_S448x512_S100000x512_1_0_0_1_n_n : DotDims S100000x448 S448x512 S100000x512 where
  lhsContracting := [1]
  rhsContracting := [0]
  lhsNonContracting := [0]
  rhsNonContracting := [1]
  lhsBatch := []
  rhsBatch := []
  wf := dot_S100000x448_S448x512_S100000x512_1_0_0_1_n_n_wf
def dot_S100000x512_S512x384_S100000x384_1_0_0_1_n_n : DotDims S100000x512 S512x384 S100000x384 where
  lhsContracting := [1]
  rhsContracting := [0]
  lhsNonContracting := [0]
  rhsNonContracting := [1]
  lhsBatch := []
  rhsBatch := []
  wf := dot_S100000x512_S512x384_S100000x384_1_0_0_1_n_n_wf

class Facts : Prop extends Facts₀ where

variable [Facts]
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«131558_j38113539784806_1_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibLayerNorm.lean ====
/-
  Row normalisation on the extended reals, over rank-2 arrays of any extents.

  For an array `X` of `M` rows and a positive count `cnt`, `rowMean X cnt p` is the sum of row `p` divided by `cnt` and
  `rowVar X cnt p` the sum of the squared deviations of row `p` from that mean, divided by `cnt`.  The normalised array
  is written in two ways: `lnK` multiplies the deviation by the reciprocal square root of `rowVar + eps`, `lnH` divides
  it by the square root.  A square is never negative on the extended reals (the square of an infinity is `+∞`), so
  `rowVar` is nonnegative whatever the entries are, `rowVar + eps` is positive for a positive `eps`, and there the
  quotient by a square root IS the product with the reciprocal square root (at `+∞` both are the product with `0`):
  `lnK = lnH` with no finiteness assumption.  `scaleShift Y g b` multiplies every row by the one-row array `g` and adds
  the one-row array `b`.  The vector unit's and the host's spellings of each step are read as these functions, and every
  one of them at an index depends on one row of `X` only.
-/
import proofs.«131558_j38113539784806_1_alg».proof.Proof.LibDense
import proofs.«131558_j38113539784806_1_alg».proof.Proof.LibRowBlocks
import proofs.«131558_j38113539784806_1_alg».proof.Proof.LibHostLayout

noncomputable section

open scoped BigOperators

namespace Cert.LayerNorm

open Idealize.ShloMosaic Idealize.ShloMosaic.ValueIdx Cert.Dense

/-! ## The functions -/

/-- The mean of row `p`: its sum over the count. -/
def rowMean {M N : ℕ} (X : Mat M N) (cnt : EReal) (p : Fin M) : EReal := Ideal.div (∑ k : Fin N, X (ix2 p k)) cnt

/-- The deviation from the row's mean. -/
def centered {M N : ℕ} (X : Mat M N) (cnt : EReal) : Mat M N := fun i => X i - rowMean X cnt (c0 i)

/-- The sum of the squared deviations of row `p`. -/
def sqSum {M N : ℕ} (X : Mat M N) (cnt : EReal) (p : Fin M) : EReal :=
  ∑ k : Fin N, centered X cnt (ix2 p k) * centered X cnt (ix2 p k)

/-- The variance of row `p`. -/
def rowVar {M N : ℕ} (X : Mat M N) (cnt : EReal) (p : Fin M) : EReal := Ideal.div (sqSum X cnt p) cnt

/-- The row means as a column. -/
def meanCol {M N : ℕ} (X : Mat M N) (cnt : EReal) : Mat M 1 := fun i => rowMean X cnt (c0 i)
/-- The squared-deviation sums as a vector. -/
def sqSumVec {M N : ℕ} (X : Mat M N) (cnt : EReal) : Row M := fun i => sqSum X cnt ⟨(i 0).val, (i 0).isLt⟩
/-- The row variances as a column. -/
def varCol {M N : ℕ} (X : Mat M N) (cnt : EReal) : Mat M 1 := fun i => rowVar X cnt (c0 i)

/-- Normalised rows, the deviation TIMES the reciprocal square root. -/
def lnK {M N : ℕ} (X : Mat M N) (cnt eps : EReal) : Mat M N :=
  fun i => centered X cnt i * Ideal.rsqrt (rowVar X cnt (c0 i) + eps)

/-- Normalised rows, the deviation OVER the square root. -/
def lnH {M N : ℕ} (X : Mat M N) (cnt eps : EReal) : Mat M N :=
  fun i => Ideal.div (centered X cnt i) (Ideal.sqrt (rowVar X cnt (c0 i) + eps))

/-- Every row times a one-row array, plus a one-row array. -/
def scaleShift {M N : ℕ} (Y : Mat M N) (g b : Mat 1 N) : Mat M N :=
  fun i => Y i * g (ix2 (0 : Fin 1) (c1 i)) + b (ix2 (0 : Fin 1) (c1 i))

/-! ## The quotient by a square root is the product with the reciprocal square root, above zero -/

theorem div_sqrt_eq_mul_rsqrt (a v : EReal) (hv : 0 < v) : Ideal.div a (Ideal.sqrt v) = a * Ideal.rsqrt v := by
  induction v using EReal.rec with
  | bot => exact absurd hv (by simp)
  | top =>
    show Ideal.div a ⊤ = a * 0
    unfold Ideal.div
    rw [if_neg (by simp), EReal.inv_top]
  | coe r =>
    have hr : 0 < r := by exact_mod_cast hv
    have hs : Real.sqrt r ≠ 0 := (Real.sqrt_pos.mpr hr).ne'
    show Ideal.div a (if r < 0 then (⊥ : EReal) else ((Real.sqrt r : ℝ) : EReal))
      = a * (if r < 0 then (⊥ : EReal) else if r = 0 then (⊤ : EReal) else (((Real.sqrt r)⁻¹ : ℝ) : EReal))
    rw [if_neg (not_lt.mpr hr.le), if_neg (not_lt.mpr hr.le), if_neg hr.ne']
    unfold Ideal.div
    rw [if_neg (by exact_mod_cast hs), EReal.coe_inv]

theorem mul_self_nonneg' (d : EReal) : 0 ≤ d * d := by
  induction d using EReal.rec with
  | bot => simp
  | top => simp
  | coe r => exact_mod_cast mul_self_nonneg r

theorem sqSum_nonneg {M N : ℕ} (X : Mat M N) (cnt : EReal) (p : Fin M) : 0 ≤ sqSum X cnt p :=
  Finset.sum_nonneg fun _ _ => mul_self_nonneg' _

theorem rowVar_nonneg {M N : ℕ} (X : Mat M N) {r : ℝ} (hr : 0 < r) (p : Fin M) : 0 ≤ rowVar X (r : EReal) p := by
  unfold rowVar
  rw [Ideal.div_coe hr.ne']
  exact mul_nonneg (sqSum_nonneg X _ p) (by exact_mod_cast (one_div_pos.mpr hr).le)

/-- The two spellings of the normalisation agree: no finiteness of the entries is needed. -/
theorem lnK_eq_lnH {M N : ℕ} (X : Mat M N) {r : ℝ} (hr : 0 < r) {eps : EReal} (heps : 0 < eps) :
    lnK X (r : EReal) eps = lnH X (r : EReal) eps := by
  funext i
  exact (div_sqrt_eq_mul_rsqrt _ _ (lt_of_lt_of_le heps (le_add_of_nonneg_left (rowVar_nonneg X hr _)))).symm

/-! ## At an index: one row of the array decides -/

theorem rowMean_congr {M M' N : ℕ} (X : Mat M N) (X' : Mat M' N) (cnt : EReal) (p : Fin M) (p' : Fin M')
    (h : ∀ k, X' (ix2 p' k) = X (ix2 p k)) : rowMean X' cnt p' = rowMean X cnt p := by
  unfold rowMean; simp only [h]

theorem centered_congr {M M' N : ℕ} (X : Mat M N) (X' : Mat M' N) (cnt : EReal) (p : Fin M) (p' : Fin M')
    (h : ∀ k, X' (ix2 p' k) = X (ix2 p k)) (q : Fin N) : centered X' cnt (ix2 p' q) = centered X cnt (ix2 p q) := by
  show X' (ix2 p' q) - rowMean X' cnt p' = X (ix2 p q) - rowMean X cnt p
  rw [h q, rowMean_congr X X' cnt p p' h]

theorem rowVar_congr {M M' N : ℕ} (X : Mat M N) (X' : Mat M' N) (cnt : EReal) (p : Fin M) (p' : Fin M')
    (h : ∀ k, X' (ix2 p' k) = X (ix2 p k)) : rowVar X' cnt p' = rowVar X cnt p := by
  unfold rowVar sqSum; simp only [centered_congr X X' cnt p p' h]

theorem lnH_congr {M M' N : ℕ} (X : Mat M N) (X' : Mat M' N) (cnt eps : EReal) (p : Fin M) (p' : Fin M')
    (h : ∀ k, X' (ix2 p' k) = X (ix2 p k)) (q : Fin N) : lnH X' cnt eps (ix2 p' q) = lnH X cnt eps (ix2 p q) := by
  show Ideal.div (centered X' cnt (ix2 p' q)) (Ideal.sqrt (rowVar X' cnt p' + eps))
    = Ideal.div (centered X cnt (ix2 p q)) (Ideal.sqrt (rowVar X cnt p + eps))
  rw [centered_congr X X' cnt p p' h, rowVar_congr X X' cnt p p' h]

theorem scaleShift_apply {M N : ℕ} (Y : Mat M N) (g b : Mat 1 N) (p : Fin M) (q : Fin N) :
    scaleShift Y g b (ix2 p q) = Y (ix2 p q) * g (ix2 (0 : Fin 1) q) + b (ix2 (0 : Fin 1) q) := rfl

/-! ## The vector unit's spelling -/

section Vec

variable {M N : ℕ} (X : FVec Ideal ⟨2, ![M, N]⟩ .f32) (cw ew : BitVec 32)
  (hr : (⟨2, ![M, N]⟩ : Shape).Reduces [1] ⟨1, ![M]⟩) (hφ : FKind.Formats .f32)
  (hacc : (0x00000000#32 : BitVec 32) = 0x00000000#32)
  (hc : (⟨1, ![M]⟩ : Shape).ShapeCasts ⟨2, ![M, 1]⟩) (hb : (⟨2, ![M, 1]⟩ : Shape).Broadcasts ⟨2, ![M, N]⟩)

/-- The row sums cast to a column and divided by the count splat: the column of means. -/
theorem vecMeanCol :
    divf (shapeCast ⟨2, ![M, 1]⟩ (multiReduction .add [1] ⟨1, ![M]⟩ X 0x00000000#32 hr hφ hacc) hc)
        (broadcast ⟨2, ![M, 1]⟩ (Scalar.ofBits (F := Ideal) .f32 cw))
      = meanCol X (Ideal.ofBits .f32 cw) := by
  funext i
  obtain ⟨p, u, rfl⟩ : ∃ (p : Fin M) (u : Fin 1), i = ix2 p u := ⟨i 0, i 1, eq_ix2 i⟩
  show Ideal.div (shapeCast ⟨2, ![M, 1]⟩ (multiReduction .add [1] ⟨1, ![M]⟩ X 0x00000000#32 hr hφ hacc) hc (ix2 p u))
      (Ideal.ofBits .f32 cw) = rowMean X (Ideal.ofBits .f32 cw) p
  rw [Cert.RowBlocks.shapeCast_col_apply, Cert.RowBlocks.rowSum_apply]
  rfl

/-- The array less the column of means broadcast along the rows: the deviations. -/
theorem vecCentered (cnt : EReal) :
    subf (F := Ideal) (φ := .f32) X (broadcastTo ⟨2, ![M, N]⟩ (meanCol X cnt) hb) = centered X cnt := by
  funext i
  obtain ⟨p, q, rfl⟩ : ∃ (p : Fin M) (q : Fin N), i = ix2 p q := ⟨i 0, i 1, eq_ix2 i⟩
  show X (ix2 p q) - broadcastTo ⟨2, ![M, N]⟩ (meanCol X cnt) hb (ix2 p q) = _
  rw [Cert.RowBlocks.broadcastTo_col_apply]
  rfl

/-- The row sums of the squared deviations. -/
theorem vecSqSum (cnt : EReal) :
    multiReduction (F := Ideal) (φ := .f32) .add [1] ⟨1, ![M]⟩
        (mulf (F := Ideal) (φ := .f32) (centered X cnt) (centered X cnt)) 0x00000000#32 hr hφ hacc
      = sqSumVec X cnt := by
  funext i
  obtain ⟨p, rfl⟩ : ∃ p : Fin M, i = ix1 p := ⟨i 0, eq_ix1 i⟩
  exact Cert.RowBlocks.rowSum_apply (mulf (F := Ideal) (φ := .f32) (centered X cnt) (centered X cnt)) hr hφ hacc p

/-- Those sums cast to a column and divided by the count splat: the column of variances. -/
theorem vecVarCol (cnt : EReal) :
    divf (F := Ideal) (φ := .f32) (shapeCast ⟨2, ![M, 1]⟩ (sqSumVec X cnt) hc) (broadcast ⟨2, ![M, 1]⟩ (Scalar.ofBits (F := Ideal) .f32 cw))
      = fun i => Ideal.div (sqSum X cnt (c0 i)) (Ideal.ofBits .f32 cw) := by
  funext i
  obtain ⟨p, u, rfl⟩ : ∃ (p : Fin M) (u : Fin 1), i = ix2 p u := ⟨i 0, i 1, eq_ix2 i⟩
  show Ideal.div (shapeCast ⟨2, ![M, 1]⟩ (sqSumVec X cnt) hc (ix2 p u)) (Ideal.ofBits .f32 cw) = _
  rw [Cert.RowBlocks.shapeCast_col_apply]
  rfl

/-- The deviations times the broadcast reciprocal square root of the variance column plus the epsilon splat. -/
theorem vecLnK :
    mulf (F := Ideal) (φ := .f32) (centered X (Ideal.ofBits .f32 cw))
        (broadcastTo ⟨2, ![M, N]⟩
          (rsqrt (F := Ideal) (φ := .f32) (addf (F := Ideal) (φ := .f32)
            (fun i => Ideal.div (sqSum X (Ideal.ofBits .f32 cw) (c0 i)) (Ideal.ofBits .f32 cw))
            (broadcast ⟨2, ![M, 1]⟩ (Scalar.ofBits (F := Ideal) .f32 ew)))) hb)
      = lnK X (Ideal.ofBits .f32 cw) (Ideal.ofBits .f32 ew) := by
  funext i
  obtain ⟨p, q, rfl⟩ : ∃ (p : Fin M) (q : Fin N), i = ix2 p q := ⟨i 0, i 1, eq_ix2 i⟩
  show centered X (Ideal.ofBits .f32 cw) (ix2 p q) * broadcastTo ⟨2, ![M, N]⟩ _ hb (ix2 p q) = _
  rw [Cert.RowBlocks.broadcastTo_col_apply]
  rfl

/-- Every row times the broadcast row `g`, plus the broadcast row `b`. -/
theorem vecScaleShift (Y : FVec Ideal ⟨2, ![M, N]⟩ .f32) (g b : FVec Ideal ⟨2, ![1, N]⟩ .f32)
    (h1 : (⟨2, ![1, N]⟩ : Shape).Broadcasts ⟨2, ![M, N]⟩) :
    addf (mulf Y (broadcastTo ⟨2, ![M, N]⟩ g h1)) (broadcastTo ⟨2, ![M, N]⟩ b h1) = scaleShift Y g b := by
  funext i
  obtain ⟨p, q, rfl⟩ : ∃ (p : Fin M) (q : Fin N), i = ix2 p q := ⟨i 0, i 1, eq_ix2 i⟩
  show Y (ix2 p q) * broadcastTo ⟨2, ![M, N]⟩ g h1 (ix2 p q) + broadcastTo ⟨2, ![M, N]⟩ b h1 (ix2 p q) = _
  rw [broadcastTo_1b_ab_apply, broadcastTo_1b_ab_apply]
  rfl

end Vec

/-! ## The host's spelling -/

section Host

variable {M N : ℕ} (X : FVec Ideal ⟨2, ![M, N]⟩ .f32) (cw ew : BitVec 32)
  (hr' : (⟨2, ![M, N]⟩ : Shape).ReducesTo [1] ⟨1, ![M]⟩)
  (hu : 0 < (⟨0, ![]⟩ : Shape).numel)
  (hv : (⟨1, ![M]⟩ : Shape).BroadcastsInDim ⟨2, ![M, 1]⟩ ![0])
  (h0 : (⟨0, ![]⟩ : Shape).BroadcastsInDim ⟨2, ![M, 1]⟩ ![])
  (hb : (⟨2, ![M, 1]⟩ : Shape).BroadcastsInDim ⟨2, ![M, N]⟩ ![0, 1])

/-- The host's row sums from a zero, broadcast to a column, over the broadcast count: the column of means. -/
theorem hostMeanCol (hr : (⟨2, ![M, N]⟩ : Shape).Reduces [1] ⟨1, ![M]⟩) :
    Host.divf (F := Ideal) (φ := .f32) (broadcastInDim ⟨2, ![M, 1]⟩ ![0] hv (Host.reduceAdd X (constant (F := Ideal) ⟨0, ![]⟩ .f32 0x00000000#32) hr' hu))
        (broadcastInDim ⟨2, ![M, 1]⟩ ![] h0 (constant (F := Ideal) ⟨0, ![]⟩ .f32 cw))
      = meanCol X (Ideal.ofBits .f32 cw) := by
  funext i
  obtain ⟨p, u, rfl⟩ : ∃ (p : Fin M) (u : Fin 1), i = ix2 p u := ⟨i 0, i 1, eq_ix2 i⟩
  simp only [Host.divf]
  rw [Cert.HostLayout.bcast_vec_col, Cert.HostLayout.bcast_scalar_mat, Cert.HostLayout.hostRowSum X _ hr' hr hu p]
  show Ideal.div (Ideal.ofBits .f32 0x00000000#32 + _) (Ideal.ofBits .f32 cw) = _
  rw [Ideal.ofBits_zero_f32, zero_add]
  rfl

/-- The array less the column of means broadcast along the rows: the deviations. -/
theorem hostCentered (cnt : EReal) :
    subf (F := Ideal) (φ := .f32) X (broadcastInDim ⟨2, ![M, N]⟩ ![0, 1] hb (meanCol X cnt)) = centered X cnt := by
  funext i
  obtain ⟨p, q, rfl⟩ : ∃ (p : Fin M) (q : Fin N), i = ix2 p q := ⟨i 0, i 1, eq_ix2 i⟩
  show X (ix2 p q) - broadcastInDim ⟨2, ![M, N]⟩ ![0, 1] hb (meanCol X cnt) (ix2 p q) = _
  rw [Cert.HostLayout.bcast_col_mat]
  rfl

/-- The host's row sums of the squared deviations, to a column, over the broadcast count: the column of variances. -/
theorem hostVarCol (hr : (⟨2, ![M, N]⟩ : Shape).Reduces [1] ⟨1, ![M]⟩) (cnt : EReal) :
    Host.divf (F := Ideal) (φ := .f32) (broadcastInDim ⟨2, ![M, 1]⟩ ![0] hv
          (Host.reduceAdd (F := Ideal) (φ := .f32) (mulf (F := Ideal) (φ := .f32) (centered X cnt) (centered X cnt)) (constant (F := Ideal) ⟨0, ![]⟩ .f32 0x00000000#32) hr' hu))
        (broadcastInDim ⟨2, ![M, 1]⟩ ![] h0 (constant (F := Ideal) ⟨0, ![]⟩ .f32 cw))
      = fun i => Ideal.div (sqSum X cnt (c0 i)) (Ideal.ofBits .f32 cw) := by
  funext i
  obtain ⟨p, u, rfl⟩ : ∃ (p : Fin M) (u : Fin 1), i = ix2 p u := ⟨i 0, i 1, eq_ix2 i⟩
  simp only [Host.divf]
  rw [Cert.HostLayout.bcast_vec_col, Cert.HostLayout.bcast_scalar_mat,
    Cert.HostLayout.hostRowSum (mulf (F := Ideal) (φ := .f32) (centered X cnt) (centered X cnt)) _ hr' hr hu p]
  show Ideal.div (Ideal.ofBits .f32 0x00000000#32 + _) (Ideal.ofBits .f32 cw) = _
  rw [Ideal.ofBits_zero_f32, zero_add]
  rfl

/-- The deviations over the broadcast square root of the variance column plus the broadcast epsilon. -/
theorem hostLnH :
    Host.divf (F := Ideal) (φ := .f32) (centered X (Ideal.ofBits .f32 cw))
        (broadcastInDim ⟨2, ![M, N]⟩ ![0, 1] hb
          (Host.sqrt (F := Ideal) (φ := .f32) (addf (F := Ideal) (φ := .f32)
            (fun i => Ideal.div (sqSum X (Ideal.ofBits .f32 cw) (c0 i)) (Ideal.ofBits .f32 cw))
            (broadcastInDim ⟨2, ![M, 1]⟩ ![] h0 (constant (F := Ideal) ⟨0, ![]⟩ .f32 ew)))))
      = lnH X (Ideal.ofBits .f32 cw) (Ideal.ofBits .f32 ew) := by
  funext i
  obtain ⟨p, q, rfl⟩ : ∃ (p : Fin M) (q : Fin N), i = ix2 p q := ⟨i 0, i 1, eq_ix2 i⟩
  simp only [Host.divf]
  rw [Cert.HostLayout.bcast_col_mat]
  simp only [Host.sqrt, addf]
  rw [Cert.HostLayout.bcast_scalar_mat]
  rfl

/-- Every row times the vector `g` laid along the rows, plus the vector `b` laid along the rows. -/
theorem hostScaleShift (Y : FVec Ideal ⟨2, ![M, N]⟩ .f32) (g b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (F := Ideal) (φ := .f32) (mulf Y (broadcastInDim ⟨2, ![M, N]⟩ ![0, 1] h2 (broadcastInDim ⟨2, ![1, N]⟩ ![1] h1 g)))
        (broadcastInDim ⟨2, ![M, N]⟩ ![0, 1] h2 (broadcastInDim ⟨2, ![1, N]⟩ ![1] h1 b))
      = scaleShift Y (row g) (row b) := by
  funext i
  obtain ⟨p, q, rfl⟩ : ∃ (p : Fin M) (q : Fin N), i = ix2 p q := ⟨i 0, i 1, eq_ix2 i⟩
  show Y (ix2 p q) * broadcastInDim ⟨2, ![M, N]⟩ ![0, 1] h2 (broadcastInDim ⟨2, ![1, N]⟩ ![1] h1 g) (ix2 p q)
      + broadcastInDim ⟨2, ![M, N]⟩ ![0, 1] h2 (broadcastInDim ⟨2, ![1, N]⟩ ![1] h1 b) (ix2 p q) = _
  rw [Cert.HostLayout.bcast_vec_mat, Cert.HostLayout.bcast_vec_mat]
  rfl

end Host

end Cert.LayerNorm

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«131558_j38113539784806_1_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibNormMlp.lean ====
/-
  A two-layer perceptron's tail on the extended reals, over rank-2 arrays of any extents.

  From the first layer's product `P` (rows × hidden): add the one-row bias and rectify, normalise each row (mean and
  variance over the row, a positive count and a positive epsilon), scale and shift by one-row arrays, multiply by the
  second layer's matrix and add its one-row bias.  `tailK` normalises with the reciprocal square root, `tailH` with the
  quotient by the square root; they are equal (`LibLayerNorm`).  A row of the result depends on the same row of `P` only.
-/
import proofs.«131558_j38113539784806_1_alg».proof.Proof.LibLayerNorm
import proofs.«131558_j38113539784806_1_alg».proof.Proof.LibBiasRow

noncomputable section

open scoped BigOperators

namespace Cert.NormMlp

open Idealize.ShloMosaic Idealize.ShloMosaic.ValueIdx Cert.Dense Cert.BiasRow Cert.LayerNorm

/-- Bias, rectify, normalise (reciprocal square root), scale and shift, second layer, bias. -/
def tailK {M H O : ℕ} (P : Mat M H) (b1 g be : Mat 1 H) (W2 : Mat H O) (b2 : Mat 1 O) (cnt eps : EReal) : Mat M O :=
  addRow (mm (scaleShift (lnK (reluBias P b1) cnt eps) g be) W2) b2

/-- The same with the quotient by the square root. -/
def tailH {M H O : ℕ} (P : Mat M H) (b1 g be : Mat 1 H) (W2 : Mat H O) (b2 : Mat 1 O) (cnt eps : EReal) : Mat M O :=
  addRow (mm (scaleShift (lnH (reluBias P b1) cnt eps) g be) W2) b2

theorem tailK_eq_tailH {M H O : ℕ} (P : Mat M H) (b1 g be : Mat 1 H) (W2 : Mat H O) (b2 : Mat 1 O)
    {r : ℝ} (hr : 0 < r) {eps : EReal} (heps : 0 < eps) :
    tailK P b1 g be W2 b2 (r : EReal) eps = tailH P b1 g be W2 b2 (r : EReal) eps := by
  unfold tailK tailH
  rw [lnK_eq_lnH _ hr heps]

/-- A row of the tail's result depends on the same row of the first layer's product. -/
theorem tailH_congr {M M' H O : ℕ} (P : Mat M H) (P' : Mat M' H) (b1 g be : Mat 1 H) (W2 : Mat H O) (b2 : Mat 1 O)
    (cnt eps : EReal) (p : Fin M) (p' : Fin M') (h : ∀ k, P' (ix2 p' k) = P (ix2 p k)) (q : Fin O) :
    tailH P' b1 g be W2 b2 cnt eps (ix2 p' q) = tailH P b1 g be W2 b2 cnt eps (ix2 p q) := by
  have hR : ∀ k, reluBias P' b1 (ix2 p' k) = reluBias P b1 (ix2 p k) := fun k => by
    show max (P' (ix2 p' k) + b1 (ix2 (0 : Fin 1) k)) 0 = max (P (ix2 p k) + b1 (ix2 (0 : Fin 1) k)) 0
    rw [h k]
  have hY : ∀ k, scaleShift (lnH (reluBias P' b1) cnt eps) g be (ix2 p' k)
      = scaleShift (lnH (reluBias P b1) cnt eps) g be (ix2 p k) := fun k => by
    rw [scaleShift_apply, scaleShift_apply, lnH_congr (reluBias P b1) (reluBias P' b1) cnt eps p p' hR k]
  show mm _ W2 (ix2 p' q) + b2 (ix2 (0 : Fin 1) q) = mm _ W2 (ix2 p q) + b2 (ix2 (0 : Fin 1) q)
  rw [mm_rows _ _ W2 p p' hY q]

/-- A sum over `c = a + b` terms splits into the first `a` and the last `b`. -/
theorem sum_split {a b c : ℕ} (h : a + b = c) (f : Fin c → EReal) :
    ∑ k : Fin c, f k = (∑ k : Fin a, f ⟨k.val, by omega⟩) + ∑ k : Fin b, f ⟨a + k.val, by omega⟩ := by
  subst h
  rw [Fin.sum_univ_add]
  rfl

/-- A sum over `d = a + b + c` terms splits into three runs. -/
theorem sum_split3 {a b c d : ℕ} (h : a + b + c = d) (f : Fin d → EReal) :
    ∑ k : Fin d, f k = ((∑ k : Fin a, f ⟨k.val, by omega⟩) + ∑ k : Fin b, f ⟨a + k.val, by omega⟩)
      + ∑ k : Fin c, f ⟨a + b + k.val, by omega⟩ := by
  rw [sum_split h f, sum_split (rfl : a + b = a + b) (fun k : Fin (a + b) => f ⟨k.val, by omega⟩)]

end Cert.NormMlp

end
-- ==== Proof.RefValue.lean ====
/-
  The reference's two perceptrons as the tail of their first products.

  From the product of the concatenated inputs with the first weight matrix the reference adds the bias vector laid along
  the rows, rectifies, takes each row's mean and variance by sums over the row divided by the hidden width, divides the
  deviation by the square root of variance plus epsilon, scales and shifts by vectors laid along the rows, multiplies by
  the second weight matrix and adds its bias: `tailH` of the first product, for the edge perceptron (hidden width 256)
  and for the node perceptron (hidden width 512).
-/
import proofs.«131558_j38113539784806_1_alg».proof.Proof.Gen.ReferenceIdeal.Read
import proofs.«131558_j38113539784806_1_alg».proof.Proof.LibNormMlp

set_option maxRecDepth 16384

noncomputable section

namespace Cert.ReferenceIdeal.RefValue

open Idealize.ShloMosaic Idealize.ShloMosaic.ValueIdx Cert.ReferenceIdeal Cert.ReferenceIdeal.Gen Cert.ReferenceIdeal.Read
open Cert.Dense Cert.BiasRow Cert.LayerNorm Cert.NormMlp

/-- The edge perceptron: the message array is the tail of the first product. -/
theorem edge_ref (x0 : (⟨S100000x128, .f32⟩ : BufTy).Contents (Elt Ideal)) (x1 : (⟨S2x300000, .i32⟩ : BufTy).Contents (Elt Ideal))
    (x2 : (⟨S300000x128, .f32⟩ : BufTy).Contents (Elt Ideal)) (x7 : (⟨S256x256, .f32⟩ : BufTy).Contents (Elt Ideal))
    (x8 x9 x10 : (⟨S256, .f32⟩ : BufTy).Contents (Elt Ideal)) (x11 : (⟨S256x256, .f32⟩ : BufTy).Contents (Elt Ideal))
    (x12 : (⟨S256, .f32⟩ : BufTy).Contents (Elt Ideal)) :
    val_main_v44 (F := Ideal) x0 x1 x2 x7 x8 x9 x10 x11 x12
      = tailH (val_main_v12 (F := Ideal) x0 x1 x2 x7) (row x8) (row x9) (row x10) x11 (row x12)
          (Ideal.ofBits .f32 0x43800000#32) (Ideal.ofBits .f32 0x3727C5AC#32) := by
  unfold val_main_v44 val_main_v43 val_main_v42 val_main_v41 val_main_v40 val_main_v39 val_main_v38 val_main_v37 val_main_v36
    val_main_v35 val_main_v34 val_main_v33 val_main_v32 val_main_v31 val_main_v30 val_main_cst_4 val_main_v29 val_main_v28
    val_main_v27 val_main_v26 val_main_cst_3 val_main_v25 val_main_v24 val_main_cst_2 val_main_v23 val_main_v22 val_main_v21
    val_main_v20 val_main_v19 val_main_cst_1 val_main_v18 val_main_v17 val_main_cst val_main_v16 val_main_call0_v0
    val_main_call0_cst val_main_v15 val_main_v14 val_main_v13
  generalize val_main_v12 (F := Ideal) x0 x1 x2 x7 = P
  rw [hostReluBias,
    hostMeanCol (M := 300000) (N := 256) _ 0x43800000#32 reducesTo_S300000x256_S300000_d1 h_S_ bcast_S300000_S300000x1_0 bcast_S_S300000x1 (by decide),
    hostCentered (M := 300000) (N := 256) _ bcast_S300000x1_S300000x256_0_1,
    hostVarCol (M := 300000) (N := 256) _ 0x43800000#32 reducesTo_S300000x256_S300000_d1 h_S_ bcast_S300000_S300000x1_0 bcast_S_S300000x1 (by decide),
    hostLnH (M := 300000) (N := 256) _ 0x43800000#32 0x3727C5AC#32 bcast_S_S300000x1 bcast_S300000x1_S300000x256_0_1,
    hostScaleShift (M := 300000) (N := 256),
    hostDot_eq_mm dot_S300000x256_S256x256_S300000x256_1_0_0_1_n_n rfl rfl rfl rfl rfl rfl,
    hostAddRow]
  rfl

/-- The node perceptron: the result array is the tail of the first product. -/
theorem node_ref (x0 : (⟨S100000x128, .f32⟩ : BufTy).Contents (Elt Ideal)) (x1 : (⟨S2x300000, .i32⟩ : BufTy).Contents (Elt Ideal))
    (x2 : (⟨S300000x128, .f32⟩ : BufTy).Contents (Elt Ideal)) (x3 : (⟨S16x64, .f32⟩ : BufTy).Contents (Elt Ideal)) (x4 : (⟨S100000, .i32⟩ : BufTy).Contents (Elt Ideal))
    (x6 : (⟨S300000x1, .f32⟩ : BufTy).Contents (Elt Ideal)) (x7 : (⟨S256x256, .f32⟩ : BufTy).Contents (Elt Ideal))
    (x8 x9 x10 : (⟨S256, .f32⟩ : BufTy).Contents (Elt Ideal)) (x11 : (⟨S256x256, .f32⟩ : BufTy).Contents (Elt Ideal))
    (x12 : (⟨S256, .f32⟩ : BufTy).Contents (Elt Ideal)) (x13 : (⟨S448x512, .f32⟩ : BufTy).Contents (Elt Ideal))
    (x14 x15 x16 : (⟨S512, .f32⟩ : BufTy).Contents (Elt Ideal)) (x17 : (⟨S512x384, .f32⟩ : BufTy).Contents (Elt Ideal))
    (x18 : (⟨S384, .f32⟩ : BufTy).Contents (Elt Ideal)) :
    val_main_v99 (F := Ideal) x0 x1 x2 x3 x4 x6 x7 x8 x9 x10 x11 x12 x13 x14 x15 x16 x17 x18
      = tailH (val_main_v67 (F := Ideal) x0 x1 x2 x3 x4 x6 x7 x8 x9 x10 x11 x12 x13) (row x14) (row x15) (row x16) x17 (row x18)
          (Ideal.ofBits .f32 0x44000000#32) (Ideal.ofBits .f32 0x3727C5AC#32) := by
  unfold val_main_v99 val_main_v98 val_main_v97 val_main_v96 val_main_v95 val_main_v94 val_main_v93 val_main_v92 val_main_v91
    val_main_v90 val_main_v89 val_main_v88 val_main_v87 val_main_v86 val_main_v85 val_main_cst_15 val_main_v84 val_main_v83
    val_main_v82 val_main_v81 val_main_cst_14 val_main_v80 val_main_v79 val_main_cst_13 val_main_v78 val_main_v77 val_main_v76
    val_main_v75 val_main_v74 val_main_cst_12 val_main_v73 val_main_v72 val_main_cst_11 val_main_v71 val_main_call1_v0
    val_main_call1_cst val_main_v70 val_main_v69 val_main_v68
  generalize val_main_v67 (F := Ideal) x0 x1 x2 x3 x4 x6 x7 x8 x9 x10 x11 x12 x13 = P
  rw [hostReluBias,
    hostMeanCol (M := 100000) (N := 512) _ 0x44000000#32 reducesTo_S100000x512_S100000_d1 h_S_ bcast_S100000_S100000x1_0 bcast_S_S100000x1 (by decide),
    hostCentered (M := 100000) (N := 512) _ bcast_S100000x1_S100000x512_0_1,
    hostVarCol (M := 100000) (N := 512) _ 0x44000000#32 reducesTo_S100000x512_S100000_d1 h_S_ bcast_S100000_S100000x1_0 bcast_S_S100000x1 (by decide),
    hostLnH (M := 100000) (N := 512) _ 0x44000000#32 0x3727C5AC#32 bcast_S_S100000x1 bcast_S100000x1_S100000x512_0_1,
    hostScaleShift (M := 100000) (N := 512),
    hostDot_eq_mm dot_S100000x512_S512x384_S100000x384_1_0_0_1_n_n rfl rfl rfl rfl rfl rfl,
    hostAddRow]
  rfl

end Cert.ReferenceIdeal.RefValue

end
-- ==== Proof.KernelHost.lean ====
/- What each region of the idealized kernel program finds in its input windows' arrays, as terms of the launch memory:
   the host operations before region 0 (index normalisation and the gather of source-node rows, slices of the first
   edge weight, reshaped biases) and between the regions (the weighted segment mean of the edge messages over the
   destination nodes, the gather of the graph-level rows, slices of the first node weight, reshaped biases), each
   composed in the order the program applies them. -/
import proofs.«131558_j38113539784806_1_alg».proof.Proof.Gen.KernelIdeal.Frame
import Idealize.ShloMosaic.PureOps.Ideal

set_option maxRecDepth 16384

noncomputable section

namespace Cert.KernelIdeal.RunValue

open Idealize.ShloMosaic Idealize.ShloMosaic.TcCoe Idealize.ShloMosaic.Tactic
open Idealize.SL.Sem
open Cert.KernelIdeal.Gen

/-! ## The host operations' values -/

/-- Row `k` of the edge index as a vector: the slice at row `k`, flattened. -/
def srcVec (ei : (⟨S2x300000, .i32⟩ : BufTy).Contents (Elt Ideal)) : (⟨S300000, .i32⟩ : BufTy).Contents (Elt Ideal) :=
  shapeCast S300000 (extractStridedSlice S1x300000 ![0, 0] ei slices_S2x300000_S1x300000_0_0) shapeCasts_S1x300000_S300000
def dstVec (ei : (⟨S2x300000, .i32⟩ : BufTy).Contents (Elt Ideal)) : (⟨S300000, .i32⟩ : BufTy).Contents (Elt Ideal) :=
  shapeCast S300000 (extractStridedSlice S1x300000 ![1, 0] ei slices_S2x300000_S1x300000_1_0) shapeCasts_S1x300000_S300000

/-- The source indices as the gather takes them: a negative index counted from the end (plus the node count), as a column. -/
def srcIdx (ei : (⟨S2x300000, .i32⟩ : BufTy).Contents (Elt Ideal)) : (⟨S300000x1, .i32⟩ : BufTy).Contents (Elt Ideal) :=
  broadcastInDim S300000x1 ![0] bcast_S300000_S300000x1_0
    (select (cmpi .slt (srcVec ei) (broadcastInDim S300000 ![] bcast_S_S300000 (constantI S_ 32 0#32)))
      (addi (srcVec ei) (broadcastInDim S300000 ![] bcast_S_S300000 (constantI S_ 32 100000#32)))
      (srcVec ei))

/-- The destination indices as the segment sums take them: a column. -/
def dstIdx (ei : (⟨S2x300000, .i32⟩ : BufTy).Contents (Elt Ideal)) : (⟨S300000x1, .i32⟩ : BufTy).Contents (Elt Ideal) :=
  broadcastInDim S300000x1 ![0] bcast_S300000_S300000x1_0 (dstVec ei)

/-- The source nodes' feature rows, one per edge. -/
def xGather (x : (⟨S100000x128, .f32⟩ : BufTy).Contents (Elt Ideal)) (ei : (⟨S2x300000, .i32⟩ : BufTy).Contents (Elt Ideal)) :
    (⟨S300000x128, .f32⟩ : BufTy).Contents (Elt Ideal) :=
  Host.gather gather_S100000x128_S300000x1_S300000x128_1_0_n_n_0_1_1128 x (srcIdx ei)

/-- The edge messages, each scaled by its edge's weight. -/
def weighted (em : (⟨S300000x256, .f32⟩ : BufTy).Contents (Elt Ideal)) (wts : (⟨S300000x1, .f32⟩ : BufTy).Contents (Elt Ideal)) :
    (⟨S300000x256, .f32⟩ : BufTy).Contents (Elt Ideal) :=
  mulf (F := Ideal) (φ := .f32) em (broadcastInDim S300000x256 ![0, 1] bcast_S300000x1_S300000x256_0_1 wts)

/-- The weighted messages summed over each destination node's edges. -/
def segSum (em : (⟨S300000x256, .f32⟩ : BufTy).Contents (Elt Ideal)) (wts : (⟨S300000x1, .f32⟩ : BufTy).Contents (Elt Ideal))
    (di : (⟨S300000x1, .i32⟩ : BufTy).Contents (Elt Ideal)) : (⟨S100000x256, .f32⟩ : BufTy).Contents (Elt Ideal) :=
  Host.scatterAdd scatter_S100000x256_S300000x1_S300000x256_1_0_0_1
    (broadcastInDim S100000x256 ![] bcast_S_S100000x256 (constant (F := Ideal) S_ .f32 0x00000000#32)) di (weighted em wts)

/-- Each destination node's number of edges. -/
def segCount (di : (⟨S300000x1, .i32⟩ : BufTy).Contents (Elt Ideal)) : (⟨S100000, .f32⟩ : BufTy).Contents (Elt Ideal) :=
  Host.scatterAdd scatter_S100000_S300000x1_S300000_n_0_0_1
    (broadcastInDim S100000 ![] bcast_S_S100000 (constant (F := Ideal) S_ .f32 0x00000000#32)) di
    (broadcastInDim S300000 ![] bcast_S_S300000 (constant (F := Ideal) S_ .f32 0x3F800000#32))

/-- The segment mean at given destination indices: the sums over the counts, a count below one taken as one. -/
def recvAt (em : (⟨S300000x256, .f32⟩ : BufTy).Contents (Elt Ideal)) (wts : (⟨S300000x1, .f32⟩ : BufTy).Contents (Elt Ideal))
    (di : (⟨S300000x1, .i32⟩ : BufTy).Contents (Elt Ideal)) : (⟨S100000x256, .f32⟩ : BufTy).Contents (Elt Ideal) :=
  Host.divf (segSum em wts di)
    (broadcastInDim S100000x256 ![0, 1] bcast_S100000x1_S100000x256_0_1
      (broadcastInDim S100000x1 ![0] bcast_S100000_S100000x1_0
        (maximumf (segCount di) (broadcastInDim S100000 ![] bcast_S_S100000 (constant (F := Ideal) S_ .f32 0x3F800000#32)))))

/-- What each node receives: the weighted segment mean of the edge messages over the edges that end at it. -/
def recv (em : (⟨S300000x256, .f32⟩ : BufTy).Contents (Elt Ideal)) (wts : (⟨S300000x1, .f32⟩ : BufTy).Contents (Elt Ideal))
    (ei : (⟨S2x300000, .i32⟩ : BufTy).Contents (Elt Ideal)) : (⟨S100000x256, .f32⟩ : BufTy).Contents (Elt Ideal) :=
  recvAt em wts (dstIdx ei)

/-- Each node's graph-level row: the row of `u` at the node's graph, a negative index counted from the end. -/
def uGather (u : (⟨S16x64, .f32⟩ : BufTy).Contents (Elt Ideal)) (nb : (⟨S100000, .i32⟩ : BufTy).Contents (Elt Ideal)) :
    (⟨S100000x64, .f32⟩ : BufTy).Contents (Elt Ideal) :=
  Host.gather gather_S16x64_S100000x1_S100000x64_1_0_n_n_0_1_164 u
    (broadcastInDim S100000x1 ![0] bcast_S100000_S100000x1_0
      (select (cmpi .slt nb (broadcastInDim S100000 ![] bcast_S_S100000 (constantI S_ 32 0#32)))
        (addi nb (broadcastInDim S100000 ![] bcast_S_S100000 (constantI S_ 32 16#32)))
        nb))

/-! ## The host operations before region 0, from any contents `W` -/

section Fold0
variable (W : Valuation τ sig (Elt Ideal))

theorem after0_v10 : StableHlo.after hostOps0 W (Proc.devRef .tc main_v10)
    = xGather (W (Proc.devRef .tc main_arg0)) (W (Proc.devRef .tc main_arg1)) := by
  after_results; rfl
theorem after0_v3 : StableHlo.after hostOps0 W (Proc.devRef .tc main_v3) = dstVec (W (Proc.devRef .tc main_arg1)) := by
  after_results; rfl
theorem after0_v11 : StableHlo.after hostOps0 W (Proc.devRef .tc main_v11)
    = extractStridedSlice S128x256 ![0, 0] (W (Proc.devRef .tc main_arg7)) slices_S256x256_S128x256_0_0 := by
  after_results
theorem after0_v12 : StableHlo.after hostOps0 W (Proc.devRef .tc main_v12)
    = extractStridedSlice S128x256 ![128, 0] (W (Proc.devRef .tc main_arg7)) slices_S256x256_S128x256_128_0 := by
  after_results
theorem after0_v13 : StableHlo.after hostOps0 W (Proc.devRef .tc main_v13)
    = shapeCast S1x256 (W (Proc.devRef .tc main_arg8)) shapeCasts_S256_S1x256 := by
  after_results; rfl
theorem after0_v14 : StableHlo.after hostOps0 W (Proc.devRef .tc main_v14)
    = shapeCast S1x256 (W (Proc.devRef .tc main_arg9)) shapeCasts_S256_S1x256 := by
  after_results; rfl
theorem after0_v15 : StableHlo.after hostOps0 W (Proc.devRef .tc main_v15)
    = shapeCast S1x256 (W (Proc.devRef .tc main_arg10)) shapeCasts_S256_S1x256 := by
  after_results; rfl
theorem after0_v16 : StableHlo.after hostOps0 W (Proc.devRef .tc main_v16)
    = shapeCast S1x256 (W (Proc.devRef .tc main_arg12)) shapeCasts_S256_S1x256 := by
  after_results; rfl
/-- A buffer the operations do not write keeps its contents. -/
theorem after0_arg2 : StableHlo.after hostOps0 W (Proc.devRef .tc main_arg2) = W (Proc.devRef .tc main_arg2) := by
  after_results
theorem after0_arg11 : StableHlo.after hostOps0 W (Proc.devRef .tc main_arg11) = W (Proc.devRef .tc main_arg11) := by
  after_results
theorem after0_arg0 : StableHlo.after hostOps0 W (Proc.devRef .tc main_arg0) = W (Proc.devRef .tc main_arg0) := by
  after_results
theorem after0_arg1 : StableHlo.after hostOps0 W (Proc.devRef .tc main_arg1) = W (Proc.devRef .tc main_arg1) := by
  after_results
theorem after0_arg3 : StableHlo.after hostOps0 W (Proc.devRef .tc main_arg3) = W (Proc.devRef .tc main_arg3) := by
  after_results
theorem after0_arg4 : StableHlo.after hostOps0 W (Proc.devRef .tc main_arg4) = W (Proc.devRef .tc main_arg4) := by
  after_results
theorem after0_arg6 : StableHlo.after hostOps0 W (Proc.devRef .tc main_arg6) = W (Proc.devRef .tc main_arg6) := by
  after_results
theorem after0_arg13 : StableHlo.after hostOps0 W (Proc.devRef .tc main_arg13) = W (Proc.devRef .tc main_arg13) := by
  after_results
theorem after0_arg14 : StableHlo.after hostOps0 W (Proc.devRef .tc main_arg14) = W (Proc.devRef .tc main_arg14) := by
  after_results
theorem after0_arg15 : StableHlo.after hostOps0 W (Proc.devRef .tc main_arg15) = W (Proc.devRef .tc main_arg15) := by
  after_results
theorem after0_arg16 : StableHlo.after hostOps0 W (Proc.devRef .tc main_arg16) = W (Proc.devRef .tc main_arg16) := by
  after_results
theorem after0_arg17 : StableHlo.after hostOps0 W (Proc.devRef .tc main_arg17) = W (Proc.devRef .tc main_arg17) := by
  after_results
theorem after0_arg18 : StableHlo.after hostOps0 W (Proc.devRef .tc main_arg18) = W (Proc.devRef .tc main_arg18) := by
  after_results
end Fold0

/-! ## The host operations between the regions, from any contents `W` -/

section Fold1
variable (W : Valuation τ sig (Elt Ideal))

theorem after1_v31 : StableHlo.after hostOps1 W (Proc.devRef .tc main_v31)
    = recvAt (W (Proc.devRef .tc main_v17)) (W (Proc.devRef .tc main_arg6))
        (broadcastInDim S300000x1 ![0] bcast_S300000_S300000x1_0 (W (Proc.devRef .tc main_v3))) := by
  after_results_simp; rfl
theorem after1_v38 : StableHlo.after hostOps1 W (Proc.devRef .tc main_v38)
    = uGather (W (Proc.devRef .tc main_arg3)) (W (Proc.devRef .tc main_arg4)) := by
  after_results_simp; rfl
theorem after1_v39 : StableHlo.after hostOps1 W (Proc.devRef .tc main_v39)
    = extractStridedSlice S128x512 ![0, 0] (W (Proc.devRef .tc main_arg13)) slices_S448x512_S128x512_0_0 := by
  after_results
theorem after1_v40 : StableHlo.after hostOps1 W (Proc.devRef .tc main_v40)
    = extractStridedSlice S256x512 ![128, 0] (W (Proc.devRef .tc main_arg13)) slices_S448x512_S256x512_128_0 := by
  after_results
theorem after1_v41 : StableHlo.after hostOps1 W (Proc.devRef .tc main_v41)
    = extractStridedSlice S64x512 ![384, 0] (W (Proc.devRef .tc main_arg13)) slices_S448x512_S64x512_384_0 := by
  after_results
theorem after1_v42 : StableHlo.after hostOps1 W (Proc.devRef .tc main_v42)
    = shapeCast S1x512 (W (Proc.devRef .tc main_arg14)) shapeCasts_S512_S1x512 := by
  after_results; rfl
theorem after1_v43 : StableHlo.after hostOps1 W (Proc.devRef .tc main_v43)
    = shapeCast S1x512 (W (Proc.devRef .tc main_arg15)) shapeCasts_S512_S1x512 := by
  after_results; rfl
theorem after1_v44 : StableHlo.after hostOps1 W (Proc.devRef .tc main_v44)
    = shapeCast S1x512 (W (Proc.devRef .tc main_arg16)) shapeCasts_S512_S1x512 := by
  after_results; rfl
theorem after1_v45 : StableHlo.after hostOps1 W (Proc.devRef .tc main_v45)
    = shapeCast S1x384 (W (Proc.devRef .tc main_arg18)) shapeCasts_S384_S1x384 := by
  after_results; rfl
theorem after1_arg0 : StableHlo.after hostOps1 W (Proc.devRef .tc main_arg0) = W (Proc.devRef .tc main_arg0) := by
  after_results
theorem after1_arg17 : StableHlo.after hostOps1 W (Proc.devRef .tc main_arg17) = W (Proc.devRef .tc main_arg17) := by
  after_results
end Fold1

variable (m : (ℓ : Loc nD τ sig) → Buf (Elt Ideal) ℓ) (ρ : Dev nD → PrngReg) (c : Dev nD)

/-! ## Region 0's input windows: the arrays at its entry -/

theorem V1_w0 : Gen.V1 m ρ c (Pipeline.arrRef spec0 (0 : Fin cfg0.W)) = xGather (m ((c.tc : Thread nD τ).loc main_arg0)) (m ((c.tc : Thread nD τ).loc main_arg1)) :=
  after0_v10 (Gen.W0 m ρ c)
theorem V1_w1 : Gen.V1 m ρ c (Pipeline.arrRef spec0 (1 : Fin cfg0.W)) = (m ((c.tc : Thread nD τ).loc main_arg2)) :=
  after0_arg2 (Gen.W0 m ρ c)
theorem V1_w2 : Gen.V1 m ρ c (Pipeline.arrRef spec0 (2 : Fin cfg0.W))
    = extractStridedSlice S128x256 ![0, 0] (m ((c.tc : Thread nD τ).loc main_arg7)) slices_S256x256_S128x256_0_0 :=
  after0_v11 (Gen.W0 m ρ c)
theorem V1_w3 : Gen.V1 m ρ c (Pipeline.arrRef spec0 (3 : Fin cfg0.W))
    = extractStridedSlice S128x256 ![128, 0] (m ((c.tc : Thread nD τ).loc main_arg7)) slices_S256x256_S128x256_128_0 :=
  after0_v12 (Gen.W0 m ρ c)
theorem V1_w4 : Gen.V1 m ρ c (Pipeline.arrRef spec0 (4 : Fin cfg0.W)) = shapeCast S1x256 (m ((c.tc : Thread nD τ).loc main_arg8)) shapeCasts_S256_S1x256 :=
  after0_v13 (Gen.W0 m ρ c)
theorem V1_w5 : Gen.V1 m ρ c (Pipeline.arrRef spec0 (5 : Fin cfg0.W)) = shapeCast S1x256 (m ((c.tc : Thread nD τ).loc main_arg9)) shapeCasts_S256_S1x256 :=
  after0_v14 (Gen.W0 m ρ c)
theorem V1_w6 : Gen.V1 m ρ c (Pipeline.arrRef spec0 (6 : Fin cfg0.W)) = shapeCast S1x256 (m ((c.tc : Thread nD τ).loc main_arg10)) shapeCasts_S256_S1x256 :=
  after0_v15 (Gen.W0 m ρ c)
theorem V1_w7 : Gen.V1 m ρ c (Pipeline.arrRef spec0 (7 : Fin cfg0.W)) = (m ((c.tc : Thread nD τ).loc main_arg11)) :=
  after0_arg11 (Gen.W0 m ρ c)
theorem V1_w8 : Gen.V1 m ρ c (Pipeline.arrRef spec0 (8 : Fin cfg0.W)) = shapeCast S1x256 (m ((c.tc : Thread nD τ).loc main_arg12)) shapeCasts_S256_S1x256 :=
  after0_v16 (Gen.W0 m ρ c)

/-! ## The contents at region 0's exit, at the buffers the operations between the regions read -/

/-- The edge messages: what region 0's pipeline leaves at its output window (window 9). -/
theorem W2_v17 : Gen.W2 m ρ c (Proc.devRef .tc main_v17) = (Gen.dat0 (Gen.V1 m ρ) c).arrAt 9 cfg0.N :=
  Gen.W2_arr m ρ c 9
/-- The destination row of the edge index, computed before region 0 and no array of it. -/
theorem W2_v3 : Gen.W2 m ρ c (Proc.devRef .tc main_v3) = dstVec (m ((c.tc : Thread nD τ).loc main_arg1)) :=
  (Gen.W2_of_ne m ρ c main_v3 (by decide)).trans (after0_v3 (Gen.W0 m ρ c))
theorem W2_arg0 : Gen.W2 m ρ c (Proc.devRef .tc main_arg0) = (m ((c.tc : Thread nD τ).loc main_arg0)) :=
  (Gen.W2_of_ne m ρ c main_arg0 (by decide)).trans (after0_arg0 (Gen.W0 m ρ c))
theorem W2_arg1 : Gen.W2 m ρ c (Proc.devRef .tc main_arg1) = (m ((c.tc : Thread nD τ).loc main_arg1)) :=
  (Gen.W2_of_ne m ρ c main_arg1 (by decide)).trans (after0_arg1 (Gen.W0 m ρ c))
theorem W2_arg3 : Gen.W2 m ρ c (Proc.devRef .tc main_arg3) = (m ((c.tc : Thread nD τ).loc main_arg3)) :=
  (Gen.W2_of_ne m ρ c main_arg3 (by decide)).trans (after0_arg3 (Gen.W0 m ρ c))
theorem W2_arg4 : Gen.W2 m ρ c (Proc.devRef .tc main_arg4) = (m ((c.tc : Thread nD τ).loc main_arg4)) :=
  (Gen.W2_of_ne m ρ c main_arg4 (by decide)).trans (after0_arg4 (Gen.W0 m ρ c))
theorem W2_arg6 : Gen.W2 m ρ c (Proc.devRef .tc main_arg6) = (m ((c.tc : Thread nD τ).loc main_arg6)) :=
  (Gen.W2_of_ne m ρ c main_arg6 (by decide)).trans (after0_arg6 (Gen.W0 m ρ c))
theorem W2_arg13 : Gen.W2 m ρ c (Proc.devRef .tc main_arg13) = (m ((c.tc : Thread nD τ).loc main_arg13)) :=
  (Gen.W2_of_ne m ρ c main_arg13 (by decide)).trans (after0_arg13 (Gen.W0 m ρ c))
theorem W2_arg14 : Gen.W2 m ρ c (Proc.devRef .tc main_arg14) = (m ((c.tc : Thread nD τ).loc main_arg14)) :=
  (Gen.W2_of_ne m ρ c main_arg14 (by decide)).trans (after0_arg14 (Gen.W0 m ρ c))
theorem W2_arg15 : Gen.W2 m ρ c (Proc.devRef .tc main_arg15) = (m ((c.tc : Thread nD τ).loc main_arg15)) :=
  (Gen.W2_of_ne m ρ c main_arg15 (by decide)).trans (after0_arg15 (Gen.W0 m ρ c))
theorem W2_arg16 : Gen.W2 m ρ c (Proc.devRef .tc main_arg16) = (m ((c.tc : Thread nD τ).loc main_arg16)) :=
  (Gen.W2_of_ne m ρ c main_arg16 (by decide)).trans (after0_arg16 (Gen.W0 m ρ c))
theorem W2_arg17 : Gen.W2 m ρ c (Proc.devRef .tc main_arg17) = (m ((c.tc : Thread nD τ).loc main_arg17)) :=
  (Gen.W2_of_ne m ρ c main_arg17 (by decide)).trans (after0_arg17 (Gen.W0 m ρ c))
theorem W2_arg18 : Gen.W2 m ρ c (Proc.devRef .tc main_arg18) = (m ((c.tc : Thread nD τ).loc main_arg18)) :=
  (Gen.W2_of_ne m ρ c main_arg18 (by decide)).trans (after0_arg18 (Gen.W0 m ρ c))

/-! ## Region 1's input windows: the arrays at its entry -/

theorem V3_w0 : Gen.V3 m ρ c (Pipeline.arrRef spec1 (0 : Fin cfg1.W)) = (m ((c.tc : Thread nD τ).loc main_arg0)) :=
  (after1_arg0 (Gen.W2 m ρ c)).trans (W2_arg0 m ρ c)
theorem V3_w1 : Gen.V3 m ρ c (Pipeline.arrRef spec1 (1 : Fin cfg1.W))
    = recv ((Gen.dat0 (Gen.V1 m ρ) c).arrAt 9 cfg0.N) (m ((c.tc : Thread nD τ).loc main_arg6)) (m ((c.tc : Thread nD τ).loc main_arg1)) := by
  refine (after1_v31 (Gen.W2 m ρ c)).trans ?_
  rw [W2_v17, W2_arg6, W2_v3]
  rfl
theorem V3_w2 : Gen.V3 m ρ c (Pipeline.arrRef spec1 (2 : Fin cfg1.W)) = uGather (m ((c.tc : Thread nD τ).loc main_arg3)) (m ((c.tc : Thread nD τ).loc main_arg4)) := by
  refine (after1_v38 (Gen.W2 m ρ c)).trans ?_
  rw [W2_arg3, W2_arg4]
theorem V3_w3 : Gen.V3 m ρ c (Pipeline.arrRef spec1 (3 : Fin cfg1.W))
    = extractStridedSlice S128x512 ![0, 0] (m ((c.tc : Thread nD τ).loc main_arg13)) slices_S448x512_S128x512_0_0 := by
  refine (after1_v39 (Gen.W2 m ρ c)).trans ?_
  rw [W2_arg13]
theorem V3_w4 : Gen.V3 m ρ c (Pipeline.arrRef spec1 (4 : Fin cfg1.W))
    = extractStridedSlice S256x512 ![128, 0] (m ((c.tc : Thread nD τ).loc main_arg13)) slices_S448x512_S256x512_128_0 := by
  refine (after1_v40 (Gen.W2 m ρ c)).trans ?_
  rw [W2_arg13]
theorem V3_w5 : Gen.V3 m ρ c (Pipeline.arrRef spec1 (5 : Fin cfg1.W))
    = extractStridedSlice S64x512 ![384, 0] (m ((c.tc : Thread nD τ).loc main_arg13)) slices_S448x512_S64x512_384_0 := by
  refine (after1_v41 (Gen.W2 m ρ c)).trans ?_
  rw [W2_arg13]
theorem V3_w6 : Gen.V3 m ρ c (Pipeline.arrRef spec1 (6 : Fin cfg1.W)) = shapeCast S1x512 (m ((c.tc : Thread nD τ).loc main_arg14)) shapeCasts_S512_S1x512 := by
  refine (after1_v42 (Gen.W2 m ρ c)).trans ?_
  rw [W2_arg14]
theorem V3_w7 : Gen.V3 m ρ c (Pipeline.arrRef spec1 (7 : Fin cfg1.W)) = shapeCast S1x512 (m ((c.tc : Thread nD τ).loc main_arg15)) shapeCasts_S512_S1x512 := by
  refine (after1_v43 (Gen.W2 m ρ c)).trans ?_
  rw [W2_arg15]
theorem V3_w8 : Gen.V3 m ρ c (Pipeline.arrRef spec1 (8 : Fin cfg1.W)) = shapeCast S1x512 (m ((c.tc : Thread nD τ).loc main_arg16)) shapeCasts_S512_S1x512 := by
  refine (after1_v44 (Gen.W2 m ρ c)).trans ?_
  rw [W2_arg16]
theorem V3_w9 : Gen.V3 m ρ c (Pipeline.arrRef spec1 (9 : Fin cfg1.W)) = (m ((c.tc : Thread nD τ).loc main_arg17)) :=
  (after1_arg17 (Gen.W2 m ρ c)).trans (W2_arg17 m ρ c)
theorem V3_w10 : Gen.V3 m ρ c (Pipeline.arrRef spec1 (10 : Fin cfg1.W)) = shapeCast S1x384 (m ((c.tc : Thread nD τ).loc main_arg18)) shapeCasts_S384_S1x384 := by
  refine (after1_v45 (Gen.W2 m ρ c)).trans ?_
  rw [W2_arg18]

end Cert.KernelIdeal.RunValue

end
-- ==== Proof.RefShared.lean ====
/- The reference program applies the same host operations as the kernel program around its perceptrons: the gather of
   the source nodes' rows at the normalised source indices, the gather of each node's graph-level row, and the weighted
   segment mean of the edge messages over the destination nodes. Each of the reference's values at these operations
   is the kernel side's term at the same arguments; the two programs spell the same shapes and dimension records by
   their own names. -/
import proofs.«131558_j38113539784806_1_alg».proof.Proof.Gen.ReferenceIdeal.Read
import proofs.«131558_j38113539784806_1_alg».proof.Proof.KernelHost

set_option maxRecDepth 16384

noncomputable section

namespace Cert.ReferenceIdeal.RefShared

open Idealize.ShloMosaic

/-- The source nodes' feature rows, one per edge. -/
theorem v10_eq (x0 : (⟨S100000x128, .f32⟩ : BufTy).Contents (Elt Ideal)) (x1 : (⟨S2x300000, .i32⟩ : BufTy).Contents (Elt Ideal)) :
    Read.val_main_v10 (F := Ideal) x0 x1 = Cert.KernelIdeal.RunValue.xGather x0 x1 := by
  unfold Read.val_main_v10 Read.val_main_v9 Read.val_main_v8 Read.val_main_v7 Read.val_main_v6 Read.val_main_c_0
    Read.val_main_v5 Read.val_main_v4 Read.val_main_c Read.val_main_v1 Read.val_main_v0
  unfold Cert.KernelIdeal.RunValue.xGather Cert.KernelIdeal.RunValue.srcIdx Cert.KernelIdeal.RunValue.srcVec
  rfl

/-- Each node's graph-level row. -/
theorem v65_eq (x3 : (⟨S16x64, .f32⟩ : BufTy).Contents (Elt Ideal)) (x4 : (⟨S100000, .i32⟩ : BufTy).Contents (Elt Ideal)) :
    Read.val_main_v65 (F := Ideal) x3 x4 = Cert.KernelIdeal.RunValue.uGather x3 x4 := by
  unfold Read.val_main_v65 Read.val_main_v64 Read.val_main_v63 Read.val_main_v62 Read.val_main_v61 Read.val_main_c_10
    Read.val_main_v60 Read.val_main_v59 Read.val_main_c_9
  unfold Cert.KernelIdeal.RunValue.uGather
  rfl

/-- What each node receives: the weighted segment mean of the reference's edge messages. -/
theorem v58_eq (x0 : (⟨S100000x128, .f32⟩ : BufTy).Contents (Elt Ideal)) (x1 : (⟨S2x300000, .i32⟩ : BufTy).Contents (Elt Ideal)) (x2 : (⟨S300000x128, .f32⟩ : BufTy).Contents (Elt Ideal))
    (x6 : (⟨S300000x1, .f32⟩ : BufTy).Contents (Elt Ideal)) (x7 : (⟨S256x256, .f32⟩ : BufTy).Contents (Elt Ideal)) (x8 x9 x10 : (⟨S256, .f32⟩ : BufTy).Contents (Elt Ideal))
    (x11 : (⟨S256x256, .f32⟩ : BufTy).Contents (Elt Ideal)) (x12 : (⟨S256, .f32⟩ : BufTy).Contents (Elt Ideal)) :
    Read.val_main_v58 (F := Ideal) x0 x1 x2 x6 x7 x8 x9 x10 x11 x12
      = Cert.KernelIdeal.RunValue.recv (Read.val_main_v44 (F := Ideal) x0 x1 x2 x7 x8 x9 x10 x11 x12) x6 x1 := by
  unfold Read.val_main_v58 Read.val_main_v57 Read.val_main_v56 Read.val_main_v55 Read.val_main_v54 Read.val_main_cst_8
    Read.val_main_v53 Read.val_main_v52 Read.val_main_v51 Read.val_main_cst_7 Read.val_main_v50 Read.val_main_cst_6
    Read.val_main_v49 Read.val_main_v48 Read.val_main_v47 Read.val_main_cst_5 Read.val_main_v46 Read.val_main_v45
    Read.val_main_v3 Read.val_main_v2
  unfold Cert.KernelIdeal.RunValue.recv Cert.KernelIdeal.RunValue.recvAt Cert.KernelIdeal.RunValue.segSum
    Cert.KernelIdeal.RunValue.segCount Cert.KernelIdeal.RunValue.weighted Cert.KernelIdeal.RunValue.dstIdx
    Cert.KernelIdeal.RunValue.dstVec
  generalize Read.val_main_v44 (F := Ideal) x0 x1 x2 x7 x8 x9 x10 x11 x12 = em
  rfl

end Cert.ReferenceIdeal.RefShared

end
-- ==== Proof.LibConcatDot.lean ====
/-
  A matrix product whose left operand is a concatenation along the columns, on the extended reals, over rank-2 arrays
  of any extents.

  With the columns of the left operand laid end to end, `[A | B] W = A W₀ + B W₁`, where `W₀` is the slab of the first
  `a` rows of `W` and `W₁` the slab of the next `b` rows: the contraction sum over `a + b` terms is the sum over the first
  `a` terms plus the sum over the last `b`, in a left factor that reads `A` on the first run and `B` on the second, and a
  right factor that reads the matching row of `W`. Only the associativity of a finite sum is used, so nothing has to be
  finite. The same with three pieces, `[A | B | C] W = (A W₀ + B W₁) + C W₂`.

  The offset of the second (third) slab is a variable with a hypothesis that it is the first extent (the sum of the first
  two), so that the statements apply to a slab whose offset is written as a numeral.
-/
import proofs.«131558_j38113539784806_1_alg».proof.Proof.LibDense
import proofs.«131558_j38113539784806_1_alg».proof.Proof.LibNormMlp

noncomputable section

open scoped BigOperators

namespace Cert.ConcatDot

open Idealize.ShloMosaic Idealize.ShloMosaic.ValueIdx Cert.Dense Cert.NormMlp

/-! ## A slab of rows read at an index -/

/-- The slab of `a` rows of `W` starting at row `off`, read at `(k, q)`, is `W` at `(off + k, q)`. -/
theorem slab_apply {c N : ℕ} (W : Mat c N) (off a : ℕ)
    (hs : (⟨2, ![c, N]⟩ : Shape).Slices ![off, 0] ⟨2, ![a, N]⟩) (k : Fin a) (q : Fin N) (hk : off + k.val < c) :
    extractStridedSlice ⟨2, ![a, N]⟩ ![off, 0] W hs (ix2 k q) = W (ix2 ⟨off + k.val, hk⟩ q) :=
  extractStridedSlice_apply ![off, 0] W hs (ix2 k q) (ix2 ⟨off + k.val, hk⟩ q) (fun d => match d with
    | ⟨0, _⟩ => rfl
    | ⟨1, _⟩ => by show q.val = 0 + q.val; omega)

/-- The slab of the first `a` rows of `W`, read at `(k, q)`, is `W` at `(k, q)`. -/
theorem slab_apply_zero {c N : ℕ} (W : Mat c N) (a : ℕ)
    (hs : (⟨2, ![c, N]⟩ : Shape).Slices ![0, 0] ⟨2, ![a, N]⟩) (k : Fin a) (q : Fin N) (hk : k.val < c) :
    extractStridedSlice ⟨2, ![a, N]⟩ ![0, 0] W hs (ix2 k q) = W (ix2 ⟨k.val, hk⟩ q) :=
  extractStridedSlice_apply ![0, 0] W hs (ix2 k q) (ix2 ⟨k.val, hk⟩ q) (fun d => match d with
    | ⟨0, _⟩ => by show k.val = 0 + k.val; omega
    | ⟨1, _⟩ => by show q.val = 0 + q.val; omega)

/-! ## Two pieces -/

/-- A concatenation of two pieces along the columns, read at a column of the first run, is the first piece there. -/
theorem concat2_left {M a b c : ℕ} (A : Mat M a) (B : Mat M b)
    (hc : Shape.Concatenates [(⟨2, ![M, a]⟩ : Shape), ⟨2, ![M, b]⟩] ⟨2, ![M, c]⟩ 1)
    (p : Fin M) (k : Fin a) (hk : k.val < c) :
    concatenate ⟨2, ![M, c]⟩ 1 [⟨⟨2, ![M, a]⟩, A⟩, ⟨⟨2, ![M, b]⟩, B⟩] hc (ix2 p ⟨k.val, hk⟩) = A (ix2 p k) :=
  concatenate_pair_apply_left 1 A B hc (ix2 p ⟨k.val, hk⟩) rfl (ix2 p k) (fun d => match d with
    | ⟨0, _⟩ => rfl
    | ⟨1, _⟩ => rfl)

/-- A concatenation of two pieces along the columns, read at a column of the second run — the first piece's extent
    plus `k` — is the second piece at column `k`. -/
theorem concat2_right {M a b c : ℕ} (A : Mat M a) (B : Mat M b)
    (hc : Shape.Concatenates [(⟨2, ![M, a]⟩ : Shape), ⟨2, ![M, b]⟩] ⟨2, ![M, c]⟩ 1)
    (p : Fin M) (k : Fin b) (hk : a + k.val < c) :
    concatenate ⟨2, ![M, c]⟩ 1 [⟨⟨2, ![M, a]⟩, A⟩, ⟨⟨2, ![M, b]⟩, B⟩] hc (ix2 p ⟨a + k.val, hk⟩) = B (ix2 p k) :=
  concatenate_pair_apply_right 1 A B hc (ix2 p ⟨a + k.val, hk⟩) rfl rfl (ix2 p k)
    (fun d hd => match d, hd with
      | ⟨0, _⟩, _ => rfl
      | ⟨1, _⟩, hd => absurd rfl hd)
    (by show k.val + a = a + k.val; omega)

/-- `[A | B] W = A W₀ + B W₁`: the host's plain dot product of a two-piece concatenation along the columns with `W` is
    the sum of the two pieces' matrix products with the matching row slabs of `W`. -/
theorem hostDot_concat2 {M a b c N : ℕ} {φ₁ φ₂ : FTy} (h : a + b = c)
    (D : DotDims ⟨2, ![M, c]⟩ ⟨2, ![c, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (A : Mat M a) (B : Mat M b) (W : Mat c N)
    (hc : Shape.Concatenates [(⟨2, ![M, a]⟩ : Shape), ⟨2, ![M, b]⟩] ⟨2, ![M, c]⟩ 1)
    (o1 : ℕ) (ho1 : o1 = a)
    (hs0 : (⟨2, ![c, N]⟩ : Shape).Slices ![0, 0] ⟨2, ![a, N]⟩)
    (hs1 : (⟨2, ![c, N]⟩ : Shape).Slices ![o1, 0] ⟨2, ![b, N]⟩) :
    Host.dotGeneral (F := Ideal) (φ₁ := φ₁) (φ₂ := φ₂) D prec
        (concatenate ⟨2, ![M, c]⟩ 1 [⟨⟨2, ![M, a]⟩, A⟩, ⟨⟨2, ![M, b]⟩, B⟩] hc) W
      = addf (F := Ideal) (φ := .f32) (s := ⟨2, ![M, N]⟩)
          (mm A (extractStridedSlice ⟨2, ![a, N]⟩ ![0, 0] W hs0))
          (mm B (extractStridedSlice ⟨2, ![b, N]⟩ ![o1, 0] W hs1)) := by
  subst o1
  funext i
  obtain ⟨p, q, rfl⟩ : ∃ (p : Fin M) (q : Fin N), i = ix2 p q := ⟨i 0, i 1, eq_ix2 i⟩
  rw [hostDot_eq_mm D h1 h2 h3 h4 h5 h6 prec]
  show mm _ W (ix2 p q) = mm A _ (ix2 p q) + mm B _ (ix2 p q)
  rw [mm_apply, mm_apply, mm_apply, sum_split h]
  congr 1
  · refine Finset.sum_congr rfl fun k _ => ?_
    rw [concat2_left A B hc p k, slab_apply_zero W a hs0 k q]
  · refine Finset.sum_congr rfl fun k _ => ?_
    rw [concat2_right A B hc p k, slab_apply W a b hs1 k q]

/-! ## Three pieces -/

/-- A concatenation of three pieces along the columns, read at a column of the first run, is the first piece there. -/
theorem concat3_1 {M a b c d : ℕ} (A : Mat M a) (B : Mat M b) (C : Mat M c)
    (hc : Shape.Concatenates [(⟨2, ![M, a]⟩ : Shape), ⟨2, ![M, b]⟩, ⟨2, ![M, c]⟩] ⟨2, ![M, d]⟩ 1)
    (p : Fin M) (k : Fin a) (hk : k.val < d) :
    concatenate ⟨2, ![M, d]⟩ 1 [⟨⟨2, ![M, a]⟩, A⟩, ⟨⟨2, ![M, b]⟩, B⟩, ⟨⟨2, ![M, c]⟩, C⟩] hc (ix2 p ⟨k.val, hk⟩)
      = A (ix2 p k) :=
  concatenate_apply_piece (t := ⟨2, ![M, d]⟩) 1 [⟨⟨2, ![M, a]⟩, A⟩, ⟨⟨2, ![M, b]⟩, B⟩, ⟨⟨2, ![M, c]⟩, C⟩] hc (ix2 p ⟨k.val, hk⟩) 0 (by show 0 < 3; omega) ⟨2, ![M, a]⟩ A rfl rfl 0 rfl (ix2 p k)
    (fun e he => match e, he with
      | ⟨0, _⟩, _ => rfl
      | ⟨1, _⟩, he => absurd rfl he)
    (by show 0 + k.val = k.val; omega)

/-- A concatenation of three pieces along the columns, read at a column of the second run — the first piece's extent
    plus `k` — is the second piece at column `k`. -/
theorem concat3_2 {M a b c d : ℕ} (A : Mat M a) (B : Mat M b) (C : Mat M c)
    (hc : Shape.Concatenates [(⟨2, ![M, a]⟩ : Shape), ⟨2, ![M, b]⟩, ⟨2, ![M, c]⟩] ⟨2, ![M, d]⟩ 1)
    (p : Fin M) (k : Fin b) (hk : a + k.val < d) :
    concatenate ⟨2, ![M, d]⟩ 1 [⟨⟨2, ![M, a]⟩, A⟩, ⟨⟨2, ![M, b]⟩, B⟩, ⟨⟨2, ![M, c]⟩, C⟩] hc (ix2 p ⟨a + k.val, hk⟩)
      = B (ix2 p k) :=
  concatenate_apply_piece (t := ⟨2, ![M, d]⟩) 1 [⟨⟨2, ![M, a]⟩, A⟩, ⟨⟨2, ![M, b]⟩, B⟩, ⟨⟨2, ![M, c]⟩, C⟩] hc (ix2 p ⟨a + k.val, hk⟩) 1 (by show 1 < 3; omega) ⟨2, ![M, b]⟩ B rfl rfl a rfl (ix2 p k)
    (fun e he => match e, he with
      | ⟨0, _⟩, _ => rfl
      | ⟨1, _⟩, he => absurd rfl he)
    rfl

/-- A concatenation of three pieces along the columns, read at a column of the third run — the first two pieces'
    extents plus `k` — is the third piece at column `k`. -/
theorem concat3_3 {M a b c d : ℕ} (A : Mat M a) (B : Mat M b) (C : Mat M c)
    (hc : Shape.Concatenates [(⟨2, ![M, a]⟩ : Shape), ⟨2, ![M, b]⟩, ⟨2, ![M, c]⟩] ⟨2, ![M, d]⟩ 1)
    (p : Fin M) (k : Fin c) (hk : a + b + k.val < d) :
    concatenate ⟨2, ![M, d]⟩ 1 [⟨⟨2, ![M, a]⟩, A⟩, ⟨⟨2, ![M, b]⟩, B⟩, ⟨⟨2, ![M, c]⟩, C⟩] hc (ix2 p ⟨a + b + k.val, hk⟩)
      = C (ix2 p k) :=
  concatenate_apply_piece (t := ⟨2, ![M, d]⟩) 1 [⟨⟨2, ![M, a]⟩, A⟩, ⟨⟨2, ![M, b]⟩, B⟩, ⟨⟨2, ![M, c]⟩, C⟩] hc (ix2 p ⟨a + b + k.val, hk⟩) 2 (by show 2 < 3; omega) ⟨2, ![M, c]⟩ C rfl rfl (a + b) rfl (ix2 p k)
    (fun e he => match e, he with
      | ⟨0, _⟩, _ => rfl
      | ⟨1, _⟩, he => absurd rfl he)
    rfl

/-- `[A | B | C] W = (A W₀ + B W₁) + C W₂`: the host's plain dot product of a three-piece concatenation along the
    columns with `W` is the sum of the three pieces' matrix products with the matching row slabs of `W`. -/
theorem hostDot_concat3 {M a b c d N : ℕ} {φ₁ φ₂ : FTy} (h : a + b + c = d)
    (D : DotDims ⟨2, ![M, d]⟩ ⟨2, ![d, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (A : Mat M a) (B : Mat M b) (C : Mat M c) (W : Mat d N)
    (hc : Shape.Concatenates [(⟨2, ![M, a]⟩ : Shape), ⟨2, ![M, b]⟩, ⟨2, ![M, c]⟩] ⟨2, ![M, d]⟩ 1)
    (o1 o2 : ℕ) (ho1 : o1 = a) (ho2 : o2 = a + b)
    (hs0 : (⟨2, ![d, N]⟩ : Shape).Slices ![0, 0] ⟨2, ![a, N]⟩)
    (hs1 : (⟨2, ![d, N]⟩ : Shape).Slices ![o1, 0] ⟨2, ![b, N]⟩)
    (hs2 : (⟨2, ![d, N]⟩ : Shape).Slices ![o2, 0] ⟨2, ![c, N]⟩) :
    Host.dotGeneral (F := Ideal) (φ₁ := φ₁) (φ₂ := φ₂) D prec
        (concatenate ⟨2, ![M, d]⟩ 1 [⟨⟨2, ![M, a]⟩, A⟩, ⟨⟨2, ![M, b]⟩, B⟩, ⟨⟨2, ![M, c]⟩, C⟩] hc) W
      = addf (F := Ideal) (φ := .f32) (s := ⟨2, ![M, N]⟩)
          (addf (F := Ideal) (φ := .f32) (s := ⟨2, ![M, N]⟩)
            (mm A (extractStridedSlice ⟨2, ![a, N]⟩ ![0, 0] W hs0))
            (mm B (extractStridedSlice ⟨2, ![b, N]⟩ ![o1, 0] W hs1)))
          (mm C (extractStridedSlice ⟨2, ![c, N]⟩ ![o2, 0] W hs2)) := by
  subst o1 o2
  funext i
  obtain ⟨p, q, rfl⟩ : ∃ (p : Fin M) (q : Fin N), i = ix2 p q := ⟨i 0, i 1, eq_ix2 i⟩
  rw [hostDot_eq_mm D h1 h2 h3 h4 h5 h6 prec]
  show mm _ W (ix2 p q) = (mm A _ (ix2 p q) + mm B _ (ix2 p q)) + mm C _ (ix2 p q)
  rw [mm_apply, mm_apply, mm_apply, mm_apply, sum_split3 h]
  congr 1
  · congr 1
    · refine Finset.sum_congr rfl fun k _ => ?_
      rw [concat3_1 A B C hc p k, slab_apply_zero W a hs0 k q]
    · refine Finset.sum_congr rfl fun k _ => ?_
      rw [concat3_2 A B C hc p k, slab_apply W a b hs1 k q]
  · refine Finset.sum_congr rfl fun k _ => ?_
    rw [concat3_3 A B C hc p k, slab_apply W (a + b) c hs2 k q]

end Cert.ConcatDot

end
-- ==== Proof.KernelRun.lean ====
/- The run of the idealized kernel program's @main with its result named: from any memory with zero counters the run
   terminates, nothing faulting; the result buffer ends at the last segment boundary's contents `Gen.W4`, which at the
   result is the array region 1's pipeline leaves at its output window, and every argument array ends as launched. -/
import proofs.«131558_j38113539784806_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of @main on the TensorCores terminates, nothing
    faulting, and every final state has the result buffer at the last boundary's contents `Gen.W4` and the argument
    arrays as launched. -/
theorem run_named : θ_run defs (onTc (τ := τ) (main (F := F))) ⟨m, fun _ => 0, ρ⟩ (fun r => ∀ c : Dev nD,
      r.2.mem ((c.tc : Thread nD τ).loc main_v46) = Gen.W4 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v46 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c)⟩)

/-- The result buffer at the last boundary: what region 1's pipeline leaves at its output window (window 11). -/
theorem W4_out (c : Dev nD) :
    Gen.W4 m ρ c (Proc.devRef .tc main_v46) = (Gen.dat1 (Gen.V3 m ρ) c).arrAt 11 cfg1.N :=
  Gen.W4_arr m ρ c 11

end Cert.KernelIdeal.RunValue

end
-- ==== Proof.KernelPay.lean ====
/-
  What each kernel body stores, as one function of the blocks it loads.

  The edge kernel multiplies its two row blocks by the two halves of the first weight matrix and adds the products;
  the node kernel does the same with three row blocks and three slabs.  From that sum both bodies run the same
  tail: bias and rectify, normalise every row (row mean and variance over the hidden width, the reciprocal square
  root of variance plus epsilon), scale and shift, multiply by the second weight matrix, add its bias.  Changes of
  float format are the identity on the extended reals and a cast between equal shapes moves nothing, so the stored
  block is `tailK` of the summed products.
-/
import proofs.«131558_j38113539784806_1_alg».proof.Proof.Gen.KernelIdeal.Skeleton
import proofs.«131558_j38113539784806_1_alg».proof.Proof.LibNormMlp

noncomputable section

namespace Cert.KernelIdeal.Pay

open Idealize.ShloMosaic Idealize.ShloMosaic.ValueIdx Cert.KernelIdeal Cert.KernelIdeal.Gen
open Cert.Dense Cert.BiasRow Cert.LayerNorm Cert.NormMlp

/-- On the extended reals a change of float format moves nothing. -/
theorem truncf_id {s : Shape} {φ ψ : FTy} (v : FVec Ideal s φ) (h : ψ.bits < φ.bits) :
    (truncf ψ v h : s.Idx → EReal) = v := rfl

/-- The count of the edge kernel's hidden width and of the node kernel's, and the epsilon, as words. -/
abbrev w256 : BitVec 32 := 0x43800000#32
abbrev w512 : BitVec 32 := 0x44000000#32
abbrev wEps : BitVec 32 := 0x3727C5AC#32

/-- The edge body's stored block. -/
theorem edge_pay (x0 x1 : Vec Ideal S4000x128 .f32) (x2 x3 : Vec Ideal S128x256 .f32) (x4 x5 x6 : Vec Ideal S1x256 .f32)
    (x7 : Vec Ideal S256x256 .f32) (x8 : Vec Ideal S1x256 .f32) :
    k0_pay1 (F := Ideal) (k0_pay2 x0 x1 x2 x3 x4) x5 x6 x7 x8
      = tailK (addf (F := Ideal) (φ := .f32) (s := S4000x256) (mm x0 x2) (mm x1 x3)) x4 x5 x6 x7 x8 (Ideal.ofBits .f32 w256) (Ideal.ofBits .f32 wEps) := by
  unfold k0_pay1 k0_pay2
  simp only [shapeCast_self, truncf_id]
  rw [matmul_zero_eq_mm dot_S4000x128_S128x256_S4000x256_1_0_0_1_n_n rfl rfl rfl rfl rfl rfl,
    matmul_zero_eq_mm dot_S4000x128_S128x256_S4000x256_1_0_0_1_n_n rfl rfl rfl rfl rfl rfl,
    vecReluBias,
    vecMeanCol (M := 4000) (N := 256) _ w256 reduces_S4000x256_S4000 (.inl rfl) rfl shapeCasts_S4000_S4000x1,
    vecCentered (M := 4000) (N := 256) _ broadcasts_S4000x1_S4000x256,
    vecSqSum (M := 4000) (N := 256) _ reduces_S4000x256_S4000 (.inl rfl) rfl,
    vecVarCol (M := 4000) (N := 256) _ w256 shapeCasts_S4000_S4000x1,
    vecLnK (M := 4000) (N := 256) _ w256 wEps broadcasts_S4000x1_S4000x256,
    vecScaleShift (M := 4000) (N := 256),
    matmul_zero_eq_mm dot_S4000x256_S256x256_S4000x256_1_0_0_1_n_n rfl rfl rfl rfl rfl rfl,
    vecAddRow]
  rfl

/-- The node body's stored block. -/
theorem node_pay (x0 : Vec Ideal S2000x128 .f32) (x1 : Vec Ideal S2000x256 .f32) (x2 : Vec Ideal S2000x64 .f32)
    (x3 : Vec Ideal S128x512 .f32) (x4 : Vec Ideal S256x512 .f32) (x5 : Vec Ideal S64x512 .f32)
    (x6 x7 x8 : Vec Ideal S1x512 .f32) (x9 : Vec Ideal S512x384 .f32) (x10 : Vec Ideal S1x384 .f32) :
    k1_pay1 (F := Ideal) (k1_pay2 x0 x1 x2 x3 x4 x5 x6) (k1_pay3 x0 x1 x2 x3 x4 x5 x6) (k1_pay4 x0 x1 x2 x3 x4 x5 x6) x7 x8 x9 x10
      = tailK (addf (F := Ideal) (φ := .f32) (s := S2000x512) (addf (F := Ideal) (φ := .f32) (s := S2000x512) (mm x0 x3) (mm x1 x4)) (mm x2 x5)) x6 x7 x8 x9 x10 (Ideal.ofBits .f32 w512) (Ideal.ofBits .f32 wEps) := by
  unfold k1_pay1 k1_pay4 k1_pay3 k1_pay2
  simp only [shapeCast_self, truncf_id]
  rw [matmul_zero_eq_mm dot_S2000x128_S128x512_S2000x512_1_0_0_1_n_n rfl rfl rfl rfl rfl rfl,
    matmul_zero_eq_mm dot_S2000x256_S256x512_S2000x512_1_0_0_1_n_n rfl rfl rfl rfl rfl rfl,
    matmul_zero_eq_mm dot_S2000x64_S64x512_S2000x512_1_0_0_1_n_n rfl rfl rfl rfl rfl rfl,
    vecReluBias,
    vecMeanCol (M := 2000) (N := 512) _ w512 reduces_S2000x512_S2000 (.inl rfl) rfl shapeCasts_S2000_S2000x1,
    vecCentered (M := 2000) (N := 512) _ broadcasts_S2000x1_S2000x512,
    vecSqSum (M := 2000) (N := 512) _ reduces_S2000x512_S2000 (.inl rfl) rfl,
    vecVarCol (M := 2000) (N := 512) _ w512 shapeCasts_S2000_S2000x1,
    vecLnK (M := 2000) (N := 512) _ w512 wEps broadcasts_S2000x1_S2000x512,
    vecScaleShift (M := 2000) (N := 512),
    matmul_zero_eq_mm dot_S2000x512_S512x384_S2000x384_1_0_0_1_n_n rfl rfl rfl rfl rfl rfl,
    vecAddRow]
  rfl

end Cert.KernelIdeal.Pay

end
-- ==== Proof.Consts.lean ====
/-
  The float constants of the two perceptrons, as the extended reals their words denote: the hidden widths `256` and
  `512` the row sums are divided by, and the normalisation's epsilon, a positive real.
-/
import Idealize.ShloMosaic.PureOps.Ideal

noncomputable section

namespace Cert.Consts

open Idealize.ShloMosaic

theorem ofBits_256 : Ideal.ofBits .f32 0x43800000#32 = ((256 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem eps_pos : (0 : EReal) < Ideal.ofBits .f32 0x3727C5AC#32 := by
  simp [Ideal.ofBits, Ideal.ieee, -EReal.coe_mul]

end Cert.Consts

end
-- ==== Proof.KernelBlocks0.lean ====
/-
  The edge perceptron's output array, from its blocks.

  The region's grid has 75 points; at point `t` the two row operands' windows hold rows `4000·t … 4000·t + 3999` of
  their arrays, the weight and bias windows hold their whole arrays, and the output window's block is written back to
  rows `4000·t …` of the output array.  A row of the perceptron's result depends on the same row of the summed
  products, hence on the same row of each row operand: the block the body stores is the block of ONE whole-array
  function, `edgeArr`, and the 75 blocks tile the array.
-/
import proofs.«131558_j38113539784806_1_alg».proof.Proof.Gen.KernelIdeal.Frame
import proofs.«131558_j38113539784806_1_alg».proof.Proof.KernelPay
import proofs.«131558_j38113539784806_1_alg».proof.Proof.Consts

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Pay
open Cert.Dense Cert.BiasRow Cert.LayerNorm Cert.NormMlp
open Idealize.ShloMosaic.Pipeline (Dat Cfg Window)

variable (V : (c : Dev nD) → (b : Ref sig .tc) → Buf (Elt Ideal) ((c : Thread nD τ).loc b))

/-- The edge perceptron on whole arrays: both row operands against their halves of the first matrix, summed, then the
    tail (written with the quotient by the square root). -/
def edgeArr {M : ℕ} (a0 a1 : Mat M 128) (a2 a3 : Mat 128 256) (a4 a5 a6 : Mat 1 256) (a7 : Mat 256 256) (a8 : Mat 1 256) :
    Mat M 256 :=
  tailH (addf (F := Ideal) (φ := .f32) (s := ⟨2, ![M, 256]⟩) (mm a0 a2) (mm a1 a3)) a4 a5 a6 a7 a8
    ((256 : ℝ) : EReal) (Ideal.ofBits .f32 wEps)

theorem hz : (![0, 0] : Fin 2 → Nat) = fun _ => 0 := funext fun a => by fin_cases a <;> rfl

/-- The printed index maps over the grid: the row windows and the output window move with the point, the others stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-! ## The windows that hold a whole array -/

theorem whole0_2 (c : Dev nD) (t : Fin cfg0.N) : (iblk0 V c 2 t : S128x256.Idx → EReal) = V c (Pipeline.arrRef spec0 2) := by
  funext y
  show V c (Pipeline.arrRef spec0 2) (((cfg0.win 2).blk t).view.emb y) = V c (Pipeline.arrRef spec0 2) y
  obtain ⟨-, -, -, -, e0, e1, -⟩ := idx_facts0 t
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

theorem whole0_3 (c : Dev nD) (t : Fin cfg0.N) : (iblk0 V c 3 t : S128x256.Idx → EReal) = V c (Pipeline.arrRef spec0 3) := by
  funext y
  show V c (Pipeline.arrRef spec0 3) (((cfg0.win 3).blk t).view.emb y) = V c (Pipeline.arrRef spec0 3) y
  obtain ⟨-, -, -, -, -, -, e0, e1, -⟩ := idx_facts0 t
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 256 + 1 * (y 1).val = (y 1).val; omega

theorem whole0_4 (c : Dev nD) (t : Fin cfg0.N) : (iblk0 V c 4 t : S1x256.Idx → EReal) = V c (Pipeline.arrRef spec0 4) := by
  funext y
  show V c (Pipeline.arrRef spec0 4) (((cfg0.win 4).blk t).view.emb y) = V c (Pipeline.arrRef spec0 4) y
  obtain ⟨-, -, -, -, -, -, -, -, e0, e1, -⟩ := idx_facts0 t
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem whole0_5 (c : Dev nD) (t : Fin cfg0.N) : (iblk0 V c 5 t : S1x256.Idx → EReal) = V c (Pipeline.arrRef spec0 5) := by
  funext y
  show V c (Pipeline.arrRef spec0 5) (((cfg0.win 5).blk t).view.emb y) = V c (Pipeline.arrRef spec0 5) y
  obtain ⟨-, -, -, -, -, -, -, -, -, -, e0, e1, -⟩ := idx_facts0 t
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

theorem whole0_6 (c : Dev nD) (t : Fin cfg0.N) : (iblk0 V c 6 t : S1x256.Idx → EReal) = V c (Pipeline.arrRef spec0 6) := by
  funext y
  show V c (Pipeline.arrRef spec0 6) (((cfg0.win 6).blk t).view.emb y) = V c (Pipeline.arrRef spec0 6) y
  obtain ⟨-, -, -, -, -, -, -, -, -, -, -, -, e0, e1, -⟩ := idx_facts0 t
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega

theorem whole0_7 (c : Dev nD) (t : Fin cfg0.N) : (iblk0 V c 7 t : S256x256.Idx → EReal) = V c (Pipeline.arrRef spec0 7) := by
  funext y
  show V c (Pipeline.arrRef spec0 7) (((cfg0.win 7).blk t).view.emb y) = V c (Pipeline.arrRef spec0 7) y
  obtain ⟨-, -, -, -, -, -, -, -, -, -, -, -, -, -, e0, e1, -⟩ := idx_facts0 t
  refine congrArg _ (funext fun a => Fin.ext ?_)
  match a with
  | ⟨0, _⟩ => show win0_7.index t (0 : Fin 2) * 256 + 1 * (y 0).val = (y 0).val; omega
  | ⟨1, _⟩ => show win0_7.index t (1 : Fin 2) * 256 + 1 * (y 1).val = (y 1).val; omega

theorem whole0_8 (c : Dev nD) (t : Fin cfg0.N) : (iblk0 V c 8 t : S1x256.Idx → EReal) = V c (Pipeline.arrRef spec0 8) := by
  funext y
  show V c (Pipeline.arrRef spec0 8) (((cfg0.win 8).blk t).view.emb y) = V c (Pipeline.arrRef spec0 8) y
  obtain ⟨-, -, -, -, -, -, -, -, -, -, -, -, -, -, -, -, e0, e1, -⟩ := idx_facts0 t
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 256 + 1 * (y 1).val = (y 1).val; omega

/-! ## The row windows: row `r` of block `t` is row `4000·t + r` of the array -/

theorem rows0_0 (c : Dev nD) (t : Fin cfg0.N) (r : Fin 4000) (p : Fin 300000) (hp : p.val = t.val * 4000 + r.val) (k : Fin 128) :
    (iblk0 V c 0 t : S4000x128.Idx → EReal) (ix2 r k) = (V c (Pipeline.arrRef spec0 0) : S300000x128.Idx → EReal) (ix2 p k) := by
  show V c (Pipeline.arrRef spec0 0) (((cfg0.win 0).blk t).view.emb (ix2 r k)) = V c (Pipeline.arrRef spec0 0) (ix2 p k)
  obtain ⟨e0, e1, -⟩ := idx_facts0 t
  refine congrArg _ (funext fun a => Fin.ext ?_)
  match a with
  | ⟨0, _⟩ => show win0_0.index t (0 : Fin 2) * 4000 + 1 * r.val = p.val; omega
  | ⟨1, _⟩ => show win0_0.index t (1 : Fin 2) * 128 + 1 * k.val = k.val; omega

theorem rows0_1 (c : Dev nD) (t : Fin cfg0.N) (r : Fin 4000) (p : Fin 300000) (hp : p.val = t.val * 4000 + r.val) (k : Fin 128) :
    (iblk0 V c 1 t : S4000x128.Idx → EReal) (ix2 r k) = (V c (Pipeline.arrRef spec0 1) : S300000x128.Idx → EReal) (ix2 p k) := by
  show V c (Pipeline.arrRef spec0 1) (((cfg0.win 1).blk t).view.emb (ix2 r k)) = V c (Pipeline.arrRef spec0 1) (ix2 p k)
  obtain ⟨-, -, e0, e1, -⟩ := idx_facts0 t
  refine congrArg _ (funext fun a => Fin.ext ?_)
  match a with
  | ⟨0, _⟩ => show win0_1.index t (0 : Fin 2) * 4000 + 1 * r.val = p.val; omega
  | ⟨1, _⟩ => show win0_1.index t (1 : Fin 2) * 128 + 1 * k.val = k.val; omega

/-! ## What point `t` writes back -/

/-- The array function at region 0's entry contents. -/
abbrev G0 (c : Dev nD) : S300000x256.Idx → EReal :=
  edgeArr (M := 300000) (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
    (V c (Pipeline.arrRef spec0 6)) (V c (Pipeline.arrRef spec0 7)) (V c (Pipeline.arrRef spec0 8))

/-- The stored block at a row is the array function at the row it is written back to. -/
theorem block_eq0 (c : Dev nD) (t : Fin cfg0.N) (r : Fin 4000) (p : Fin 300000) (hp : p.val = t.val * 4000 + r.val) (q : Fin 256) :
    tailK (addf (F := Ideal) (φ := .f32) (s := S4000x256) (mm (iblk0 V c 0 t : S4000x128.Idx → EReal) (V c (Pipeline.arrRef spec0 2)))
        (mm (iblk0 V c 1 t : S4000x128.Idx → EReal) (V c (Pipeline.arrRef spec0 3))))
      (V c (Pipeline.arrRef spec0 4)) (V c (Pipeline.arrRef spec0 5)) (V c (Pipeline.arrRef spec0 6))
      (V c (Pipeline.arrRef spec0 7)) (V c (Pipeline.arrRef spec0 8)) (Ideal.ofBits .f32 w256) (Ideal.ofBits .f32 wEps) (ix2 r q)
      = G0 V c (ix2 p q) := by
  rw [show Ideal.ofBits .f32 w256 = ((256 : ℝ) : EReal) from Cert.Consts.ofBits_256,
    tailK_eq_tailH _ _ _ _ _ _ (by norm_num : (0 : ℝ) < 256) Cert.Consts.eps_pos]
  refine tailH_congr _ _ _ _ _ _ _ _ _ p r (fun k => ?_) q
  show mm (iblk0 V c 0 t : S4000x128.Idx → EReal) (V c (Pipeline.arrRef spec0 2)) (ix2 r k)
      + mm (iblk0 V c 1 t : S4000x128.Idx → EReal) (V c (Pipeline.arrRef spec0 3)) (ix2 r k)
    = mm (V c (Pipeline.arrRef spec0 0) : S300000x128.Idx → EReal) (V c (Pipeline.arrRef spec0 2)) (ix2 p k)
      + mm (V c (Pipeline.arrRef spec0 1) : S300000x128.Idx → EReal) (V c (Pipeline.arrRef spec0 3)) (ix2 p k)
  rw [mm_rows (V c (Pipeline.arrRef spec0 0) : S300000x128.Idx → EReal) (iblk0 V c 0 t : S4000x128.Idx → EReal) _ p r
      (fun k' => rows0_0 V c t r p hp k') k,
    mm_rows (V c (Pipeline.arrRef spec0 1) : S300000x128.Idx → EReal) (iblk0 V c 1 t : S4000x128.Idx → EReal) _ p r
      (fun k' => rows0_1 V c t r p hp k') k]

theorem flushed0_eq (c : Dev nD) (t : Fin cfg0.N) :
    (dat0 V c).flushed 9 t = ((cfg0.win 9).blk t).view.read (Elt Ideal) (G0 V c) := by
  show (cfg0.win 9).cut (grid0.coords t) ((dat0 V c).after 9 t) = _
  rw [after0_9]
  unfold out0_9
  rw [View.canon_unit_zero hz]
  simp only [View.ld_unit_zero (S := S4000x128) hz, View.ld_unit_zero (S := S128x256) hz, View.ld_unit_zero (S := S1x256) hz,
    View.ld_unit_zero (S := S256x256) hz]
  rw [edge_pay, whole0_2 V c t, whole0_3 V c t, whole0_4 V c t, whole0_5 V c t, whole0_6 V c t, whole0_7 V c t, whole0_8 V c t]
  funext j
  obtain ⟨r, q, rfl⟩ : ∃ (r : Fin 4000) (q : Fin 256), j = ix2 r q := ⟨j 0, j 1, eq_ix2 j⟩
  obtain ⟨-, -, -, -, -, -, -, -, -, -, -, -, -, -, -, -, -, -, e0, e1⟩ := idx_facts0 t
  have ht : t.val < 75 := t.isLt
  have hemb : ((cfg0.win 9).blk t).view.emb (ix2 r q) = ix2 (⟨t.val * 4000 + r.val, by omega⟩ : Fin 300000) q :=
    funext fun a => Fin.ext (by
      match a with
      | ⟨0, _⟩ => show win0_9.index t (0 : Fin 2) * 4000 + 1 * r.val = t.val * 4000 + r.val; omega
      | ⟨1, _⟩ => show win0_9.index t (1 : Fin 2) * 256 + 1 * q.val = q.val; omega)
  show _ = G0 V c (((cfg0.win 9).blk t).view.emb (ix2 r q))
  rw [hemb]
  exact block_eq0 V c t r _ rfl q

/-! ## The blocks tile the array -/

theorem mem_blk0 (t : Fin cfg0.N) (i : S300000x256.Idx) :
    i ∈ ((cfg0.win 9).blk t).view.set ↔ ∀ a : Fin 2, win0_9.index t a * S4000x256.size a ≤ (i a).val ∧ (i a).val < win0_9.index t a * S4000x256.size a + S4000x256.size a := by
  show i ∈ ((View.whole main_v17).slice (win0_9.rect t)).set ↔ _
  rw [View.set_slice_whole, Rect.mem_set_unit]
  exact Iff.rfl

theorem cover0 (i : S300000x256.Idx) : ∃ t : Fin cfg0.N, (cfg0.win 9).flush t = true ∧ i ∈ ((cfg0.win 9).blk t).view.set := by
  have hi0 : (i 0).val < 300000 := (i 0).isLt
  have hi1 : (i 1).val < 256 := (i 1).isLt
  let t : Fin cfg0.N := ⟨(i 0).val / 4000, by show (i 0).val / 4000 < 75; omega⟩
  obtain ⟨-, -, -, -, -, -, -, -, -, -, -, -, -, -, -, -, -, -, e0, e1⟩ := idx_facts0 t
  have htv : t.val = (i 0).val / 4000 := rfl
  refine ⟨t, flush0_9 t, ?_⟩
  rw [mem_blk0]
  intro a
  match a with
  | ⟨0, _⟩ => show win0_9.index t (0 : Fin 2) * 4000 ≤ (i 0).val ∧ (i 0).val < win0_9.index t (0 : Fin 2) * 4000 + 4000; omega
  | ⟨1, _⟩ => show win0_9.index t (1 : Fin 2) * 256 ≤ (i 1).val ∧ (i 1).val < win0_9.index t (1 : Fin 2) * 256 + 256; omega

/-- THE ARRAY the edge region leaves: the edge perceptron of the arrays it found. -/
theorem final0 (c : Dev nD) : (dat0 V c).arrAt 9 cfg0.N = G0 V c :=
  (dat0 V c).arrAt_eq_of_cover 9 (G0 V c) (fun t _ => flushed0_eq V c t) cover0

/-- The array function, once the region's nine input arrays are known. -/
theorem G0_of (c : Dev nD) (b0 b1 : Mat 300000 128) (b2 b3 : Mat 128 256) (b4 b5 b6 : Mat 1 256) (b7 : Mat 256 256) (b8 : Mat 1 256)
    (h0 : V c (Pipeline.arrRef spec0 0) = b0) (h1 : V c (Pipeline.arrRef spec0 1) = b1) (h2 : V c (Pipeline.arrRef spec0 2) = b2)
    (h3 : V c (Pipeline.arrRef spec0 3) = b3) (h4 : V c (Pipeline.arrRef spec0 4) = b4) (h5 : V c (Pipeline.arrRef spec0 5) = b5)
    (h6 : V c (Pipeline.arrRef spec0 6) = b6) (h7 : V c (Pipeline.arrRef spec0 7) = b7) (h8 : V c (Pipeline.arrRef spec0 8) = b8) :
    G0 V c = edgeArr (M := 300000) b0 b1 b2 b3 b4 b5 b6 b7 b8 := by
  subst h0 h1 h2 h3 h4 h5 h6 h7 h8
  rfl

end Cert.KernelIdeal.Blocks

end
-- ==== Proof.KernelBlocks1.lean ====
/-
  The node perceptron's output array, from its blocks.

  The region's grid has 50 points; at point `t` the three row operands' windows hold rows `2000·t … 2000·t + 1999` of
  their arrays, the weight and bias windows hold their whole arrays, and the output window's block is written back to
  rows `2000·t …` of the output array.  A row of the perceptron's result depends on the same row of each row operand:
  the block the body stores is the block of ONE whole-array function, `nodeArr`, and the 50 blocks tile the array.
-/
import proofs.«131558_j38113539784806_1_alg».proof.Proof.Gen.KernelIdeal.Frame
import proofs.«131558_j38113539784806_1_alg».proof.Proof.KernelPay
import proofs.«131558_j38113539784806_1_alg».proof.Proof.Consts

set_option maxRecDepth 16384

noncomputable section

namespace Cert.KernelIdeal.Blocks1

open Idealize.ShloMosaic Idealize.ShloMosaic.TcCoe Idealize.ShloMosaic.ValueIdx Idealize.SL.Sem
open Cert.KernelIdeal Cert.KernelIdeal.Gen Cert.KernelIdeal.Pay
open Cert.Dense Cert.BiasRow Cert.LayerNorm Cert.NormMlp
open Idealize.ShloMosaic.Pipeline (Dat Cfg Window)

variable (V : (c : Dev nD) → (b : Ref sig .tc) → Buf (Elt Ideal) ((c : Thread nD τ).loc b))

/-- The node perceptron on whole arrays: the three row operands against their slabs of the first matrix, summed, then
    the tail (written with the quotient by the square root). -/
def nodeArr {M : ℕ} (a0 : Mat M 128) (a1 : Mat M 256) (a2 : Mat M 64) (a3 : Mat 128 512) (a4 : Mat 256 512) (a5 : Mat 64 512)
    (a6 a7 a8 : Mat 1 512) (a9 : Mat 512 384) (a10 : Mat 1 384) : Mat M 384 :=
  tailH (addf (F := Ideal) (φ := .f32) (s := ⟨2, ![M, 512]⟩)
      (addf (F := Ideal) (φ := .f32) (s := ⟨2, ![M, 512]⟩) (mm a0 a3) (mm a1 a4)) (mm a2 a5)) a6 a7 a8 a9 a10
    ((512 : ℝ) : EReal) (Ideal.ofBits .f32 wEps)

theorem hz : (![0, 0] : Fin 2 → Nat) = fun _ => 0 := funext fun a => by fin_cases a <;> rfl

/-- The printed index maps over the grid: the row windows and the output window move with the point, the others stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = t.val ∧ win1_11.index t (1 : Fin 2) = 0 :=
  (by decide +kernel : ∀ t : Fin grid1.N, _)

/-! ## The windows that hold a whole array -/

theorem whole1_3 (c : Dev nD) (t : Fin cfg1.N) : (iblk1 V c 3 t : S128x512.Idx → EReal) = V c (Pipeline.arrRef spec1 3) := by
  funext y
  show V c (Pipeline.arrRef spec1 3) (((cfg1.win 3).blk t).view.emb y) = V c (Pipeline.arrRef spec1 3) y
  obtain ⟨-, -, -, -, -, -, e0, e1, -⟩ := idx_facts1 t
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 512 + 1 * (y 1).val = (y 1).val; omega

theorem whole1_4 (c : Dev nD) (t : Fin cfg1.N) : (iblk1 V c 4 t : S256x512.Idx → EReal) = V c (Pipeline.arrRef spec1 4) := by
  funext y
  show V c (Pipeline.arrRef spec1 4) (((cfg1.win 4).blk t).view.emb y) = V c (Pipeline.arrRef spec1 4) y
  obtain ⟨-, -, -, -, -, -, -, -, e0, e1, -⟩ := idx_facts1 t
  refine congrArg _ (funext fun a => Fin.ext ?_)
  match a with
  | ⟨0, _⟩ => show win1_4.index t (0 : Fin 2) * 256 + 1 * (y 0).val = (y 0).val; omega
  | ⟨1, _⟩ => show win1_4.index t (1 : Fin 2) * 512 + 1 * (y 1).val = (y 1).val; omega

theorem whole1_5 (c : Dev nD) (t : Fin cfg1.N) : (iblk1 V c 5 t : S64x512.Idx → EReal) = V c (Pipeline.arrRef spec1 5) := by
  funext y
  show V c (Pipeline.arrRef spec1 5) (((cfg1.win 5).blk t).view.emb y) = V c (Pipeline.arrRef spec1 5) y
  obtain ⟨-, -, -, -, -, -, -, -, -, -, e0, e1, -⟩ := idx_facts1 t
  refine congrArg _ (funext fun a => Fin.ext ?_)
  match a with
  | ⟨0, _⟩ => show win1_5.index t (0 : Fin 2) * 64 + 1 * (y 0).val = (y 0).val; omega
  | ⟨1, _⟩ => show win1_5.index t (1 : Fin 2) * 512 + 1 * (y 1).val = (y 1).val; omega

theorem whole1_6 (c : Dev nD) (t : Fin cfg1.N) : (iblk1 V c 6 t : S1x512.Idx → EReal) = V c (Pipeline.arrRef spec1 6) := by
  funext y
  show V c (Pipeline.arrRef spec1 6) (((cfg1.win 6).blk t).view.emb y) = V c (Pipeline.arrRef spec1 6) y
  obtain ⟨-, -, -, -, -, -, -, -, -, -, -, -, e0, e1, -⟩ := idx_facts1 t
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 512 + 1 * (y 1).val = (y 1).val; omega

theorem whole1_7 (c : Dev nD) (t : Fin cfg1.N) : (iblk1 V c 7 t : S1x512.Idx → EReal) = V c (Pipeline.arrRef spec1 7) := by
  funext y
  show V c (Pipeline.arrRef spec1 7) (((cfg1.win 7).blk t).view.emb y) = V c (Pipeline.arrRef spec1 7) y
  obtain ⟨-, -, -, -, -, -, -, -, -, -, -, -, -, -, e0, e1, -⟩ := idx_facts1 t
  refine congrArg _ (funext fun a => Fin.ext ?_)
  match a with
  | ⟨0, _⟩ => show win1_7.index t (0 : Fin 2) * 1 + 1 * (y 0).val = (y 0).val; omega
  | ⟨1, _⟩ => show win1_7.index t (1 : Fin 2) * 512 + 1 * (y 1).val = (y 1).val; omega

theorem whole1_8 (c : Dev nD) (t : Fin cfg1.N) : (iblk1 V c 8 t : S1x512.Idx → EReal) = V c (Pipeline.arrRef spec1 8) := by
  funext y
  show V c (Pipeline.arrRef spec1 8) (((cfg1.win 8).blk t).view.emb y) = V c (Pipeline.arrRef spec1 8) y
  obtain ⟨-, -, -, -, -, -, -, -, -, -, -, -, -, -, -, -, e0, e1, -⟩ := idx_facts1 t
  refine congrArg _ (funext fun a => Fin.ext ?_)
  match a with
  | ⟨0, _⟩ => show win1_8.index t (0 : Fin 2) * 1 + 1 * (y 0).val = (y 0).val; omega
  | ⟨1, _⟩ => show win1_8.index t (1 : Fin 2) * 512 + 1 * (y 1).val = (y 1).val; omega

theorem whole1_9 (c : Dev nD) (t : Fin cfg1.N) : (iblk1 V c 9 t : S512x384.Idx → EReal) = V c (Pipeline.arrRef spec1 9) := by
  funext y
  show V c (Pipeline.arrRef spec1 9) (((cfg1.win 9).blk t).view.emb y) = V c (Pipeline.arrRef spec1 9) y
  obtain ⟨-, -, -, -, -, -, -, -, -, -, -, -, -, -, -, -, -, -, e0, e1, -⟩ := idx_facts1 t
  refine congrArg _ (funext fun a => Fin.ext ?_)
  match a with
  | ⟨0, _⟩ => show win1_9.index t (0 : Fin 2) * 512 + 1 * (y 0).val = (y 0).val; omega
  | ⟨1, _⟩ => show win1_9.index t (1 : Fin 2) * 384 + 1 * (y 1).val = (y 1).val; omega

theorem whole1_10 (c : Dev nD) (t : Fin cfg1.N) : (iblk1 V c 10 t : S1x384.Idx → EReal) = V c (Pipeline.arrRef spec1 10) := by
  funext y
  show V c (Pipeline.arrRef spec1 10) (((cfg1.win 10).blk t).view.emb y) = V c (Pipeline.arrRef spec1 10) y
  obtain ⟨-, -, -, -, -, -, -, -, -, -, -, -, -, -, -, -, -, -, -, -, e0, e1, -⟩ := idx_facts1 t
  refine congrArg _ (funext fun a => Fin.ext ?_)
  match a with
  | ⟨0, _⟩ => show win1_10.index t (0 : Fin 2) * 1 + 1 * (y 0).val = (y 0).val; omega
  | ⟨1, _⟩ => show win1_10.index t (1 : Fin 2) * 384 + 1 * (y 1).val = (y 1).val; omega

/-! ## The row windows: row `r` of block `t` is row `2000·t + r` of the array -/

theorem rows1_0 (c : Dev nD) (t : Fin cfg1.N) (r : Fin 2000) (p : Fin 100000) (hp : p.val = t.val * 2000 + r.val) (k : Fin 128) :
    (iblk1 V c 0 t : S2000x128.Idx → EReal) (ix2 r k) = (V c (Pipeline.arrRef spec1 0) : S100000x128.Idx → EReal) (ix2 p k) := by
  show V c (Pipeline.arrRef spec1 0) (((cfg1.win 0).blk t).view.emb (ix2 r k)) = V c (Pipeline.arrRef spec1 0) (ix2 p k)
  obtain ⟨e0, e1, -⟩ := idx_facts1 t
  refine congrArg _ (funext fun a => Fin.ext ?_)
  match a with
  | ⟨0, _⟩ => show win1_0.index t (0 : Fin 2) * 2000 + 1 * r.val = p.val; omega
  | ⟨1, _⟩ => show win1_0.index t (1 : Fin 2) * 128 + 1 * k.val = k.val; omega

theorem rows1_1 (c : Dev nD) (t : Fin cfg1.N) (r : Fin 2000) (p : Fin 100000) (hp : p.val = t.val * 2000 + r.val) (k : Fin 256) :
    (iblk1 V c 1 t : S2000x256.Idx → EReal) (ix2 r k) = (V c (Pipeline.arrRef spec1 1) : S100000x256.Idx → EReal) (ix2 p k) := by
  show V c (Pipeline.arrRef spec1 1) (((cfg1.win 1).blk t).view.emb (ix2 r k)) = V c (Pipeline.arrRef spec1 1) (ix2 p k)
  obtain ⟨-, -, e0, e1, -⟩ := idx_facts1 t
  refine congrArg _ (funext fun a => Fin.ext ?_)
  match a with
  | ⟨0, _⟩ => show win1_1.index t (0 : Fin 2) * 2000 + 1 * r.val = p.val; omega
  | ⟨1, _⟩ => show win1_1.index t (1 : Fin 2) * 256 + 1 * k.val = k.val; omega

theorem rows1_2 (c : Dev nD) (t : Fin cfg1.N) (r : Fin 2000) (p : Fin 100000) (hp : p.val = t.val * 2000 + r.val) (k : Fin 64) :
    (iblk1 V c 2 t : S2000x64.Idx → EReal) (ix2 r k) = (V c (Pipeline.arrRef spec1 2) : S100000x64.Idx → EReal) (ix2 p k) := by
  show V c (Pipeline.arrRef spec1 2) (((cfg1.win 2).blk t).view.emb (ix2 r k)) = V c (Pipeline.arrRef spec1 2) (ix2 p k)
  obtain ⟨-, -, -, -, e0, e1, -⟩ := idx_facts1 t
  refine congrArg _ (funext fun a => Fin.ext ?_)
  match a with
  | ⟨0, _⟩ => show win1_2.index t (0 : Fin 2) * 2000 + 1 * r.val = p.val; omega
  | ⟨1, _⟩ => show win1_2.index t (1 : Fin 2) * 64 + 1 * k.val = k.val; omega

/-! ## What point `t` writes back -/

/-- The array function at region 1's entry contents. -/
abbrev G1 (c : Dev nD) : S100000x384.Idx → EReal :=
  nodeArr (M := 100000) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10))

/-- The stored block at a row is the array function at the row it is written back to. -/
theorem block_eq1 (c : Dev nD) (t : Fin cfg1.N) (r : Fin 2000) (p : Fin 100000) (hp : p.val = t.val * 2000 + r.val) (q : Fin 384) :
    tailK (addf (F := Ideal) (φ := .f32) (s := S2000x512) (addf (F := Ideal) (φ := .f32) (s := S2000x512)
          (mm (iblk1 V c 0 t : S2000x128.Idx → EReal) (V c (Pipeline.arrRef spec1 3)))
          (mm (iblk1 V c 1 t : S2000x256.Idx → EReal) (V c (Pipeline.arrRef spec1 4))))
        (mm (iblk1 V c 2 t : S2000x64.Idx → EReal) (V c (Pipeline.arrRef spec1 5))))
      (V c (Pipeline.arrRef spec1 6)) (V c (Pipeline.arrRef spec1 7)) (V c (Pipeline.arrRef spec1 8)) (V c (Pipeline.arrRef spec1 9)) (V c (Pipeline.arrRef spec1 10)) (Ideal.ofBits .f32 w512) (Ideal.ofBits .f32 wEps) (ix2 r q)
      = G1 V c (ix2 p q) := by
  rw [show Ideal.ofBits .f32 w512 = ((512 : ℝ) : EReal) from Cert.Consts.ofBits_512,
    tailK_eq_tailH _ _ _ _ _ _ (by norm_num : (0 : ℝ) < 512) Cert.Consts.eps_pos]
  refine tailH_congr _ _ _ _ _ _ _ _ _ p r (fun k => ?_) q
  show (mm (iblk1 V c 0 t : S2000x128.Idx → EReal) (V c (Pipeline.arrRef spec1 3)) (ix2 r k)
      + mm (iblk1 V c 1 t : S2000x256.Idx → EReal) (V c (Pipeline.arrRef spec1 4)) (ix2 r k))
      + mm (iblk1 V c 2 t : S2000x64.Idx → EReal) (V c (Pipeline.arrRef spec1 5)) (ix2 r k)
    = (mm (V c (Pipeline.arrRef spec1 0) : S100000x128.Idx → EReal) (V c (Pipeline.arrRef spec1 3)) (ix2 p k)
      + mm (V c (Pipeline.arrRef spec1 1) : S100000x256.Idx → EReal) (V c (Pipeline.arrRef spec1 4)) (ix2 p k))
      + mm (V c (Pipeline.arrRef spec1 2) : S100000x64.Idx → EReal) (V c (Pipeline.arrRef spec1 5)) (ix2 p k)
  exact congrArg₂ (· + ·) (congrArg₂ (· + ·)
      (mm_rows (V c (Pipeline.arrRef spec1 0) : S100000x128.Idx → EReal) (iblk1 V c 0 t : S2000x128.Idx → EReal) _ p r
        (fun k' => rows1_0 V c t r p hp k') k)
      (mm_rows (V c (Pipeline.arrRef spec1 1) : S100000x256.Idx → EReal) (iblk1 V c 1 t : S2000x256.Idx → EReal) _ p r
        (fun k' => rows1_1 V c t r p hp k') k))
    (mm_rows (V c (Pipeline.arrRef spec1 2) : S100000x64.Idx → EReal) (iblk1 V c 2 t : S2000x64.Idx → EReal) _ p r
      (fun k' => rows1_2 V c t r p hp k') k)

set_option maxHeartbeats 1600000 in
theorem flushed1_eq (c : Dev nD) (t : Fin cfg1.N) :
    (dat1 V c).flushed 11 t = ((cfg1.win 11).blk t).view.read (Elt Ideal) (G1 V c) := by
  show (cfg1.win 11).cut (grid1.coords t) ((dat1 V c).after 11 t) = _
  rw [after1_11]
  unfold out1_11
  rw [View.canon_unit_zero hz]
  simp only [View.ld_unit_zero (S := S2000x128) hz, View.ld_unit_zero (S := S2000x256) hz, View.ld_unit_zero (S := S2000x64) hz,
    View.ld_unit_zero (S := S128x512) hz, View.ld_unit_zero (S := S256x512) hz, View.ld_unit_zero (S := S64x512) hz,
    View.ld_unit_zero (S := S1x512) hz, View.ld_unit_zero (S := S512x384) hz, View.ld_unit_zero (S := S1x384) hz]
  rw [node_pay, whole1_3 V c t, whole1_4 V c t, whole1_5 V c t, whole1_6 V c t, whole1_7 V c t, whole1_8 V c t, whole1_9 V c t, whole1_10 V c t]
  funext j
  obtain ⟨r, q, rfl⟩ : ∃ (r : Fin 2000) (q : Fin 384), j = ix2 r q := ⟨j 0, j 1, eq_ix2 j⟩
  obtain ⟨-, -, -, -, -, -, -, -, -, -, -, -, -, -, -, -, -, -, -, -, -, -, e0, e1⟩ := idx_facts1 t
  have ht : t.val < 50 := t.isLt
  have hemb : ((cfg1.win 11).blk t).view.emb (ix2 r q) = ix2 (⟨t.val * 2000 + r.val, by omega⟩ : Fin 100000) q :=
    funext fun a => Fin.ext (by
      match a with
      | ⟨0, _⟩ => show win1_11.index t (0 : Fin 2) * 2000 + 1 * r.val = t.val * 2000 + r.val; omega
      | ⟨1, _⟩ => show win1_11.index t (1 : Fin 2) * 384 + 1 * q.val = q.val; omega)
  show _ = G1 V c (((cfg1.win 11).blk t).view.emb (ix2 r q))
  rw [hemb]
  exact block_eq1 V c t r _ rfl q

/-! ## The blocks tile the array -/

theorem mem_blk1 (t : Fin cfg1.N) (i : S100000x384.Idx) :
    i ∈ ((cfg1.win 11).blk t).view.set ↔ ∀ a : Fin 2, win1_11.index t a * S2000x384.size a ≤ (i a).val ∧ (i a).val < win1_11.index t a * S2000x384.size a + S2000x384.size a := by
  show i ∈ ((View.whole main_v46).slice (win1_11.rect t)).set ↔ _
  rw [View.set_slice_whole, Rect.mem_set_unit]
  exact Iff.rfl

theorem cover1 (i : S100000x384.Idx) : ∃ t : Fin cfg1.N, (cfg1.win 11).flush t = true ∧ i ∈ ((cfg1.win 11).blk t).view.set := by
  have hi0 : (i 0).val < 100000 := (i 0).isLt
  have hi1 : (i 1).val < 384 := (i 1).isLt
  let t : Fin cfg1.N := ⟨(i 0).val / 2000, by show (i 0).val / 2000 < 50; omega⟩
  obtain ⟨-, -, -, -, -, -, -, -, -, -, -, -, -, -, -, -, -, -, -, -, -, -, e0, e1⟩ := idx_facts1 t
  have htv : t.val = (i 0).val / 2000 := rfl
  refine ⟨t, flush1_11 t, ?_⟩
  rw [mem_blk1]
  intro a
  match a with
  | ⟨0, _⟩ => show win1_11.index t (0 : Fin 2) * 2000 ≤ (i 0).val ∧ (i 0).val < win1_11.index t (0 : Fin 2) * 2000 + 2000; omega
  | ⟨1, _⟩ => show win1_11.index t (1 : Fin 2) * 384 ≤ (i 1).val ∧ (i 1).val < win1_11.index t (1 : Fin 2) * 384 + 384; omega

/-- THE ARRAY the node region leaves: the node perceptron of the arrays it found. -/
theorem final1 (c : Dev nD) : (dat1 V c).arrAt 11 cfg1.N = G1 V c :=
  (dat1 V c).arrAt_eq_of_cover 11 (G1 V c) (fun t _ => flushed1_eq V c t) cover1

/-- The array function, once the region's eleven input arrays are known. -/
theorem G1_of (c : Dev nD) (b0 : Mat 100000 128) (b1 : Mat 100000 256) (b2 : Mat 100000 64) (b3 : Mat 128 512) (b4 : Mat 256 512)
    (b5 : Mat 64 512) (b6 b7 b8 : Mat 1 512) (b9 : Mat 512 384) (b10 : Mat 1 384)
    (h0 : V c (Pipeline.arrRef spec1 0) = b0) (h1 : V c (Pipeline.arrRef spec1 1) = b1) (h2 : V c (Pipeline.arrRef spec1 2) = b2)
    (h3 : V c (Pipeline.arrRef spec1 3) = b3) (h4 : V c (Pipeline.arrRef spec1 4) = b4) (h5 : V c (Pipeline.arrRef spec1 5) = b5)
    (h6 : V c (Pipeline.arrRef spec1 6) = b6) (h7 : V c (Pipeline.arrRef spec1 7) = b7) (h8 : V c (Pipeline.arrRef spec1 8) = b8)
    (h9 : V c (Pipeline.arrRef spec1 9) = b9) (h10 : V c (Pipeline.arrRef spec1 10) = b10) :
    G1 V c = nodeArr (M := 100000) b0 b1 b2 b3 b4 b5 b6 b7 b8 b9 b10 := by
  subst h0 h1 h2 h3 h4 h5 h6 h7 h8 h9 h10
  rfl

end Cert.KernelIdeal.Blocks1

end
-- ==== Proof.KernelValue.lean ====
/-
  The kernel program's result as one function of its arguments.

  The run leaves, in the result buffer, what the node region's write-backs leave.  The node region finds the node
  features, the received messages and the gathered globals in its row windows; the received messages are the host's
  segment mean of the edge region's output; the edge region finds the gathered sender features and the edge features
  in its row windows.  Composing the two regions' array functions with the host stretches between them gives the
  result as `result` of the nineteen arguments.
-/
import proofs.«131558_j38113539784806_1_alg».proof.Proof.KernelRun
import proofs.«131558_j38113539784806_1_alg».proof.Proof.KernelHost
import proofs.«131558_j38113539784806_1_alg».proof.Proof.KernelBlocks0
import proofs.«131558_j38113539784806_1_alg».proof.Proof.KernelBlocks1

set_option maxRecDepth 16384

noncomputable section

namespace Cert.KernelIdeal.RunValue

open Idealize.ShloMosaic Idealize.ShloMosaic.TcCoe Idealize.SL.Sem
open Cert.KernelIdeal Cert.KernelIdeal.Gen Cert.KernelIdeal.Blocks Cert.KernelIdeal.Blocks1

/-- The edge messages: the edge perceptron of the gathered sender features and the edge features. -/
def edgeMsg (a0 : (⟨S100000x128, .f32⟩ : BufTy).Contents (Elt Ideal)) (a1 : (⟨S2x300000, .i32⟩ : BufTy).Contents (Elt Ideal)) (a2 : (⟨S300000x128, .f32⟩ : BufTy).Contents (Elt Ideal))
    (a7 : (⟨S256x256, .f32⟩ : BufTy).Contents (Elt Ideal)) (a8 a9 a10 : (⟨S256, .f32⟩ : BufTy).Contents (Elt Ideal)) (a11 : (⟨S256x256, .f32⟩ : BufTy).Contents (Elt Ideal))
    (a12 : (⟨S256, .f32⟩ : BufTy).Contents (Elt Ideal)) : (⟨S300000x256, .f32⟩ : BufTy).Contents (Elt Ideal) :=
  edgeArr (M := 300000) (xGather a0 a1) a2 (extractStridedSlice S128x256 ![0, 0] a7 slices_S256x256_S128x256_0_0)
    (extractStridedSlice S128x256 ![128, 0] a7 slices_S256x256_S128x256_128_0)
    (shapeCast S1x256 a8 shapeCasts_S256_S1x256) (shapeCast S1x256 a9 shapeCasts_S256_S1x256)
    (shapeCast S1x256 a10 shapeCasts_S256_S1x256) a11 (shapeCast S1x256 a12 shapeCasts_S256_S1x256)

/-- The program's result: the node perceptron of the node features, the segment mean of the weighted edge messages
    and the gathered globals. -/
def result (a0 : (⟨S100000x128, .f32⟩ : BufTy).Contents (Elt Ideal)) (a1 : (⟨S2x300000, .i32⟩ : BufTy).Contents (Elt Ideal)) (a2 : (⟨S300000x128, .f32⟩ : BufTy).Contents (Elt Ideal))
    (a3 : (⟨S16x64, .f32⟩ : BufTy).Contents (Elt Ideal)) (a4 : (⟨S100000, .i32⟩ : BufTy).Contents (Elt Ideal)) (a6 : (⟨S300000x1, .f32⟩ : BufTy).Contents (Elt Ideal))
    (a7 : (⟨S256x256, .f32⟩ : BufTy).Contents (Elt Ideal)) (a8 a9 a10 : (⟨S256, .f32⟩ : BufTy).Contents (Elt Ideal)) (a11 : (⟨S256x256, .f32⟩ : BufTy).Contents (Elt Ideal))
    (a12 : (⟨S256, .f32⟩ : BufTy).Contents (Elt Ideal)) (a13 : (⟨S448x512, .f32⟩ : BufTy).Contents (Elt Ideal)) (a14 a15 a16 : (⟨S512, .f32⟩ : BufTy).Contents (Elt Ideal))
    (a17 : (⟨S512x384, .f32⟩ : BufTy).Contents (Elt Ideal)) (a18 : (⟨S384, .f32⟩ : BufTy).Contents (Elt Ideal)) : (⟨S100000x384, .f32⟩ : BufTy).Contents (Elt Ideal) :=
  nodeArr (M := 100000) a0 (recv (edgeMsg a0 a1 a2 a7 a8 a9 a10 a11 a12) a6 a1) (uGather a3 a4)
    (extractStridedSlice S128x512 ![0, 0] a13 slices_S448x512_S128x512_0_0)
    (extractStridedSlice S256x512 ![128, 0] a13 slices_S448x512_S256x512_128_0)
    (extractStridedSlice S64x512 ![384, 0] a13 slices_S448x512_S64x512_384_0)
    (shapeCast S1x512 a14 shapeCasts_S512_S1x512) (shapeCast S1x512 a15 shapeCasts_S512_S1x512)
    (shapeCast S1x512 a16 shapeCasts_S512_S1x512) a17 (shapeCast S1x384 a18 shapeCasts_S384_S1x384)

variable (m : (ℓ : Loc nD τ sig) → Buf (Elt Ideal) ℓ) (ρ : Dev nD → PrngReg) (c : Dev nD)

/-- What the edge region leaves in its output array. -/
theorem edge_value :
    (Gen.dat0 (Gen.V1 m ρ) c).arrAt 9 cfg0.N
      = edgeMsg (m ((c.tc : Thread nD τ).loc main_arg0)) (m ((c.tc : Thread nD τ).loc main_arg1)) (m ((c.tc : Thread nD τ).loc main_arg2))
          (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12)) :=
  (final0 (Gen.V1 m ρ) c).trans (G0_of (Gen.V1 m ρ) c _ _ _ _ _ _ _ _ _ (V1_w0 m ρ c) (V1_w1 m ρ c) (V1_w2 m ρ c) (V1_w3 m ρ c)
    (V1_w4 m ρ c) (V1_w5 m ρ c) (V1_w6 m ρ c) (V1_w7 m ρ c) (V1_w8 m ρ c))

/-- What the run leaves in the result buffer. -/
theorem out_value :
    Gen.W4 m ρ c (Proc.devRef .tc main_v46)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12))
          (m ((c.tc : Thread nD τ).loc main_arg13)) (m ((c.tc : Thread nD τ).loc main_arg14)) (m ((c.tc : Thread nD τ).loc main_arg15))
          (m ((c.tc : Thread nD τ).loc main_arg16)) (m ((c.tc : Thread nD τ).loc main_arg17)) (m ((c.tc : Thread nD τ).loc main_arg18)) := by
  refine (W4_out m ρ c).trans ((final1 (Gen.V3 m ρ) c).trans ?_)
  refine (G1_of (Gen.V3 m ρ) c _ _ _ _ _ _ _ _ _ _ _ (V3_w0 m ρ c) (V3_w1 m ρ c) (V3_w2 m ρ c) (V3_w3 m ρ c) (V3_w4 m ρ c)
    (V3_w5 m ρ c) (V3_w6 m ρ c) (V3_w7 m ρ c) (V3_w8 m ρ c) (V3_w9 m ρ c) (V3_w10 m ρ c)).trans ?_
  rw [edge_value m ρ c]
  rfl

end Cert.KernelIdeal.RunValue

end
-- ==== Proof.Bridge.lean ====
/-
  The reference's result is the kernel program's result.

  Both programs gather the senders' features, run the edge perceptron, weight the messages, take the segment mean over
  the receivers, gather the globals and run the node perceptron.  They differ in two places only.  The reference
  multiplies the CONCATENATED inputs by the whole first weight matrix where the kernel adds the products of each input
  with its slab of the matrix: a sum over the joined columns splits into the runs of the pieces.  And the reference
  divides by the square root where the kernel multiplies by the reciprocal square root: equal, the variance plus a
  positive epsilon being positive.  Everything else is the same operations on the same values.
-/
import proofs.«131558_j38113539784806_1_alg».proof.Proof.RefValue
import proofs.«131558_j38113539784806_1_alg».proof.Proof.RefShared
import proofs.«131558_j38113539784806_1_alg».proof.Proof.LibConcatDot
import proofs.«131558_j38113539784806_1_alg».proof.Proof.KernelValue

set_option maxRecDepth 16384

noncomputable section

namespace Cert.Bridge

open Idealize.ShloMosaic Idealize.ShloMosaic.ValueIdx
open Cert.ReferenceIdeal Cert.ReferenceIdeal.Gen Cert.ReferenceIdeal.Read Cert.ReferenceIdeal.RefValue Cert.ReferenceIdeal.RefShared
open Cert.Dense Cert.BiasRow Cert.LayerNorm Cert.NormMlp Cert.ConcatDot

/-- The reference's edge messages are the kernel program's. -/
theorem edge_eq (x0 : (⟨S100000x128, .f32⟩ : BufTy).Contents (Elt Ideal)) (x1 : (⟨S2x300000, .i32⟩ : BufTy).Contents (Elt Ideal)) (x2 : (⟨S300000x128, .f32⟩ : BufTy).Contents (Elt Ideal))
    (x7 : (⟨S256x256, .f32⟩ : BufTy).Contents (Elt Ideal)) (x8 x9 x10 : (⟨S256, .f32⟩ : BufTy).Contents (Elt Ideal)) (x11 : (⟨S256x256, .f32⟩ : BufTy).Contents (Elt Ideal))
    (x12 : (⟨S256, .f32⟩ : BufTy).Contents (Elt Ideal)) :
    val_main_v44 (F := Ideal) x0 x1 x2 x7 x8 x9 x10 x11 x12
      = Cert.KernelIdeal.RunValue.edgeMsg x0 x1 x2 x7 x8 x9 x10 x11 x12 := by
  rw [edge_ref]
  unfold val_main_v12 val_main_v11
  rw [hostDot_concat2 (a := 128) (b := 128) (c := 256) rfl dot_S300000x256_S256x256_S300000x256_1_0_0_1_n_n rfl rfl rfl rfl rfl rfl
      none _ _ _ concatenates_S300000x128_S300000x128_S300000x256_d1 128 rfl
      Cert.KernelIdeal.Facts₀.slices_S256x256_S128x256_0_0 Cert.KernelIdeal.Facts₀.slices_S256x256_S128x256_128_0,
    v10_eq, Cert.Consts.ofBits_256]
  unfold Cert.KernelIdeal.RunValue.edgeMsg Cert.KernelIdeal.Blocks.edgeArr
  simp only [shapeCast_row]

/-- The reference's result is the kernel program's result, as functions of the eighteen arguments both read. -/
theorem result_eq (x0 : (⟨S100000x128, .f32⟩ : BufTy).Contents (Elt Ideal)) (x1 : (⟨S2x300000, .i32⟩ : BufTy).Contents (Elt Ideal)) (x2 : (⟨S300000x128, .f32⟩ : BufTy).Contents (Elt Ideal))
    (x3 : (⟨S16x64, .f32⟩ : BufTy).Contents (Elt Ideal)) (x4 : (⟨S100000, .i32⟩ : BufTy).Contents (Elt Ideal)) (x6 : (⟨S300000x1, .f32⟩ : BufTy).Contents (Elt Ideal))
    (x7 : (⟨S256x256, .f32⟩ : BufTy).Contents (Elt Ideal)) (x8 x9 x10 : (⟨S256, .f32⟩ : BufTy).Contents (Elt Ideal)) (x11 : (⟨S256x256, .f32⟩ : BufTy).Contents (Elt Ideal))
    (x12 : (⟨S256, .f32⟩ : BufTy).Contents (Elt Ideal)) (x13 : (⟨S448x512, .f32⟩ : BufTy).Contents (Elt Ideal)) (x14 x15 x16 : (⟨S512, .f32⟩ : BufTy).Contents (Elt Ideal))
    (x17 : (⟨S512x384, .f32⟩ : BufTy).Contents (Elt Ideal)) (x18 : (⟨S384, .f32⟩ : BufTy).Contents (Elt Ideal)) :
    val_main_v99 (F := Ideal) x0 x1 x2 x3 x4 x6 x7 x8 x9 x10 x11 x12 x13 x14 x15 x16 x17 x18
      = Cert.KernelIdeal.RunValue.result x0 x1 x2 x3 x4 x6 x7 x8 x9 x10 x11 x12 x13 x14 x15 x16 x17 x18 := by
  rw [node_ref]
  unfold val_main_v67 val_main_v66
  rw [hostDot_concat3 (a := 128) (b := 256) (c := 64) (d := 448) rfl dot_S100000x448_S448x512_S100000x512_1_0_0_1_n_n rfl rfl rfl rfl rfl rfl
      none _ _ _ _ concatenates_S100000x128_S100000x256_S100000x64_S100000x448_d1 128 384 rfl rfl
      Cert.KernelIdeal.Facts₀.slices_S448x512_S128x512_0_0 Cert.KernelIdeal.Facts₀.slices_S448x512_S256x512_128_0 Cert.KernelIdeal.Facts₀.slices_S448x512_S64x512_384_0,
    v58_eq, v65_eq, edge_eq, Cert.Consts.ofBits_512]
  unfold Cert.KernelIdeal.RunValue.result Cert.KernelIdeal.Blocks1.nodeArr
  simp only [shapeCast_row]

end Cert.Bridge

end
-- ==== Proof.lean ====
/-
  The certificate of a graph-network layer: gather the senders' features, an edge perceptron (linear, rectify, row
  normalisation, linear) on the edges, the weighted segment mean of its messages over the receivers, a node perceptron
  of the same kind on the nodes.  The kernel program runs the two perceptrons as two grid regions over row blocks, with
  the first layer's product taken slab by slab and the normalisation by a reciprocal square root; the reference runs
  them on whole arrays, with the inputs concatenated and the normalisation by a quotient.

  The three frames are the generated ones (the reference's is its generated run with the result dropped); nothing was
  rewritten by the idealisation, so `preserves` is trivial; and at the extended reals both programs end with the same
  result array: the kernel program's run is read region by region (each region's output array is one whole-array
  function of the arrays it found, its blocks tiling the array), the reference's run operation by operation, and the two
  results are one function of the arguments (Proof/Bridge.lean).
-/
import proofs.«131558_j38113539784806_1_alg».proof.Defs
import proofs.«131558_j38113539784806_1_alg».proof.Proof.Gen.Kernel
import proofs.«131558_j38113539784806_1_alg».proof.Proof.Gen.Kernel.Skeleton
import proofs.«131558_j38113539784806_1_alg».proof.Proof.Gen.Kernel.Launch
import proofs.«131558_j38113539784806_1_alg».proof.Proof.Gen.Kernel.Points
import proofs.«131558_j38113539784806_1_alg».proof.Proof.Gen.Kernel.Frame
import proofs.«131558_j38113539784806_1_alg».proof.Proof.Gen.KernelIdeal
import proofs.«131558_j38113539784806_1_alg».proof.Proof.Gen.KernelIdeal.Skeleton
import proofs.«131558_j38113539784806_1_alg».proof.Proof.Gen.KernelIdeal.Launch
import proofs.«131558_j38113539784806_1_alg».proof.Proof.Gen.KernelIdeal.Points
import proofs.«131558_j38113539784806_1_alg».proof.Proof.Gen.KernelIdeal.Frame
import proofs.«131558_j38113539784806_1_alg».proof.Proof.Gen.ReferenceIdeal
import proofs.«131558_j38113539784806_1_alg».proof.Proof.Gen.ReferenceIdeal.Run
import proofs.«131558_j38113539784806_1_alg».proof.Proof.Gen.ReferenceIdeal.Read
import proofs.«131558_j38113539784806_1_alg».proof.Proof.Gen.Pre_finite_inputs
import proofs.«131558_j38113539784806_1_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs run, and end with equal result arrays: the kernel program's result buffer holds `result` of the
    arguments (the regions read block by block), the reference's holds its last stage, and the two are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W4 m ρ c (Proc.devRef .tc Cert.KernelIdeal.main_v46),
    Cert.KernelIdeal.RunValue.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, -, h6, h7, h8, h9, h10, h11, h12, h13, h14, h15, h16, h17, h18⟩ := hagree c
  rw [Cert.ReferenceIdeal.Read.val_main_v99_eq, h0, h1, h2, h3, h4, h6, h7, h8, h9, h10, h11, h12, h13, h14, h15, h16, h17, h18,
    Cert.Bridge.result_eq]
  exact (Cert.KernelIdeal.RunValue.out_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
